-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x16 : Shape := ⟨2, ![1000000, 16]⟩
abbrev S2x4000000 : Shape := ⟨2, ![2, 4000000]⟩
abbrev S4000000 : Shape := ⟨1, ![4000000]⟩
abbrev S1000000x32 : Shape := ⟨2, ![1000000, 32]⟩
abbrev S16x128 : Shape := ⟨2, ![16, 128]⟩
abbrev S128 : Shape := ⟨1, ![128]⟩
abbrev S32x128 : Shape := ⟨2, ![32, 128]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S4000000 : S_.BroadcastsInDim S4000000 (![] : Fin 0 → Fin S4000000.rank)
  reducesTo_S4000000_S_d0 : S4000000.ReducesTo [0] S_
  bcast_S_S1000000x32 : S_.BroadcastsInDim S1000000x32 (![] : Fin 0 → Fin S1000000x32.rank)
  reducesTo_S1000000x32_S_d0_1 : S1000000x32.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S32 .f32) (main_arg16 : FVec F S32x1 .f32) (main_arg17 : FVec F S1 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x1 .f32 := Host.absf main_arg16
  let main_cst_28 : FVec F S_ .f32 := constant S_ .f32 0x7F800000#32
  let main_v75 : FVec F S32x1 .f32 := broadcastInDim S32x1 ![] bcast_S_S32x1 main_cst_28
  let main_v76 : IVec S32x1 1 := cmpf .olt main_v74 main_v75
  let main_c_29 : IVec S_ 1 := constantI S_ 1 1#1
  let main_v77 : IVec S_ 1 := (fun x v => Host.reduce IntOp.andi x v reducesTo_S32x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S32 .f32) (main_arg13 : FVec F S32 .f32) (main_arg14 : FVec F S32 .f32) (main_arg15 : FVec F S32 .f32) (main_arg16 : FVec F S32x1 .f32) (main_arg17 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_arg17 main_v63 main_v67

def fn_part2 {F : FTy → Type} [FloatOps F] (main_arg8 : FVec F S128 .f32) (main_arg9 : FVec F S32 .f32) (main_arg10 : FVec F S32 .f32) (main_arg11 : FVec F S32 .f32) (main_arg12 : FVec F S32 .f32) (main_arg13 : FVec F S32 .f32) (main_arg14 : FVec F S32 .f32) (main_arg15 : FVec F S32 .f32) (main_arg16 : FVec F S32x1 .f32) (main_arg17 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_arg16 main_arg17 main_v48 main_v49 main_v50

def fn_part1 {F : FTy → Type} [FloatOps F] (main_arg5 : FVec F S16x128 .f32) (main_arg6 : FVec F S128 .f32) (main_arg7 : FVec F S32x128 .f32) (main_arg8 : FVec F S128 .f32) (main_arg9 : FVec F S32 .f32) (main_arg10 : FVec F S32 .f32) (main_arg11 : FVec F S32 .f32) (main_arg12 : FVec F S32 .f32) (main_arg13 : FVec F S32 .f32) (main_arg14 : FVec F S32 .f32) (main_arg15 : FVec F S32 .f32) (main_arg16 : FVec F S32x1 .f32) (main_arg17 : FVec F S1 .f32) (main_v13 : IVec S_ 1) (main_v16 : IVec S1000000x32 1) : IVec S_ 1 :=
  let main_c_5 : IVec S_ 1 := constantI S_ 1 1#1
  let main_v17 : IVec S_ 1 := (fun x v => Host.reduce IntOp.andi x v reducesTo_S1000000x32_S_d0_1 h_S_) main_v16 main_c_5
  let main_v18 : IVec S_ 1 := andi main_v13 main_v17
  let main_v19 : FVec F S16x128 .f32 := Host.absf main_arg5
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S32x128 .f32 := Host.absf main_arg7
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S1000000x16 .f32) (main_arg1 : IVec S2x4000000 32) (main_arg2 : FVec F S4000000 .f32) (main_arg3 : FVec F S1000000x32 .f32) (main_arg4 : FVec F S1000000x32 .f32) (main_arg5 : FVec F S16x128 .f32) (main_arg6 : FVec F S128 .f32) (main_arg7 : FVec F S32x128 .f32) (main_arg8 : FVec F S128 .f32) (main_arg9 : FVec F S32 .f32) (main_arg10 : FVec F S32 .f32) (main_arg11 : FVec F S32 .f32) (main_arg12 : FVec F S32 .f32) (main_arg13 : FVec F S32 .f32) (main_arg14 : FVec F S32 .f32) (main_arg15 : FVec F S32 .f32) (main_arg16 : FVec F S32x1 .f32) (main_arg17 : FVec F S1 .f32) : IVec S_ 1 :=
  let main_v0 : FVec F S1000000x16 .f32 := Host.absf main_arg0
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S4000000 .f32 := Host.absf main_arg2
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_v9 : FVec F S1000000x32 .f32 := Host.absf main_arg3
  let main_cst_2 : FVec F S_ .f32 := constant S_ .f32 0x7F800000#32
  let main_v10 : FVec F S1000000x32 .f32 := broadcastInDim S1000000x32 ![] bcast_S_S1000000x32 main_cst_2
  let main_v11 : IVec S1000000x32 1 := cmpf .olt main_v9 main_v10
  let main_c_3 : IVec S_ 1 := constantI S_ 1 1#1
  let main_v12 : IVec S_ 1 := (fun x v => Host.reduce IntOp.andi x v reducesTo_S1000000x32_S_d0_1 h_S_) main_v11 main_c_3
  let main_v13 : IVec S_ 1 := andi main_v8 main_v12
  let main_v14 : FVec F S1000000x32 .f32 := Host.absf main_arg4
  let main_cst_4 : FVec F S_ .f32 := constant S_ .f32 0x7F800000#32
  let main_v15 : FVec F S1000000x32 .f32 := broadcastInDim S1000000x32 ![] bcast_S_S1000000x32 main_cst_4
  let main_v16 : IVec S1000000x32 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S1000000x16 : Shape := ⟨2, ![1000000, 16]⟩
abbrev S2x4000000 : Shape := ⟨2, ![2, 4000000]⟩
abbrev S4000000 : Shape := ⟨1, ![4000000]⟩
abbrev S1000000x32 : Shape := ⟨2, ![1000000, 32]⟩
abbrev S16x128 : Shape := ⟨2, ![16, 128]⟩
abbrev S128 : Shape := ⟨1, ![128]⟩
abbrev S32x128 : Shape := ⟨2, ![32, 128]⟩
abbrev S32 : Shape := ⟨1, ![32]⟩
abbrev S32x1 : Shape := ⟨2, ![32, 1]⟩
abbrev S1 : Shape := ⟨1, ![1]⟩
abbrev S1x128 : Shape := ⟨2, ![1, 128]⟩
abbrev S1x32 : Shape := ⟨2, ![1, 32]⟩
abbrev S1x1 : Shape := ⟨2, ![1, 1]⟩
abbrev S250000x128 : Shape := ⟨2, ![250000, 128]⟩
abbrev S1000000x1 : Shape := ⟨2, ![1000000, 1]⟩
abbrev S4000x16 : Shape := ⟨2, ![4000, 16]⟩
abbrev S1000x128 : Shape := ⟨2, ![1000, 128]⟩
abbrev S4000x1 : Shape := ⟨2, ![4000, 1]⟩
abbrev S4000x32 : Shape := ⟨2, ![4000, 32]⟩
abbrev S4000x128 : Shape := ⟨2, ![4000, 128]⟩

abbrev nBuf : Space → Nat
  | .hbm => 35
  | .vmem => 25
  | .smem => 0
  | _ => 0

abbrev bufTy : (tb : Table) → Fin (tcTables nBuf tb) → BufTy
  | .hbm, ⟨0, _⟩ => ⟨S1000000x16, .f32⟩
  | .hbm, ⟨1, _⟩ => ⟨S2x4000000, .i32⟩
  | .hbm, ⟨2, _⟩ => ⟨S4000000, .f32⟩
  | .hbm, ⟨3, _⟩ => ⟨S1000000x32, .f32⟩
  | .hbm, ⟨4, _⟩ => ⟨S1000000x32, .f32⟩
  | .hbm, ⟨5, _⟩ => ⟨S16x128, .f32⟩
  | .hbm, ⟨6, _⟩ => ⟨S128, .f32⟩
  | .hbm, ⟨7, _⟩ => ⟨S32x128, .f32⟩
  | .hbm, ⟨8, _⟩ => ⟨S128, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S32x1, .f32⟩
  | .hbm, ⟨17, _⟩ => ⟨S1, .f32⟩
  | .hbm, ⟨18, _⟩ => ⟨S1x128, .f32⟩
  | .hbm, ⟨19, _⟩ => ⟨S1x128, .f32⟩
  | .hbm, ⟨20, _⟩ => ⟨S1x32, .f32⟩
  | .hbm, ⟨21, _⟩ => ⟨S1x32, .f32⟩
  | .hbm, ⟨22, _⟩ => ⟨S1x32, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S1x32, .f32⟩
  | .hbm, ⟨27, _⟩ => ⟨S1x1, .f32⟩
  | .hbm, ⟨28, _⟩ => ⟨S250000x128, .f32⟩
  | .hbm, ⟨29, _⟩ => ⟨S250000x128, .f32⟩
  | .hbm, ⟨30, _⟩ => ⟨S1000000x1, .f32⟩
  | .hbm, ⟨31, _⟩ => ⟨S250000x128, .f32⟩
  | .hbm, ⟨32, _⟩ => ⟨S250000x128, .f32⟩
  | .hbm, ⟨33, _⟩ => ⟨S1000000x32, .f32⟩
  | .hbm, ⟨34, _⟩ => ⟨S1000000x32, .f32⟩
  | .local _ .vmem, ⟨0, _⟩ => ⟨S4000x16, .f32⟩
  | .local _ .vmem, ⟨1, _⟩ => ⟨S4000x16, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S16x128, .f32⟩
  | .local _ .vmem, ⟨7, _⟩ => ⟨S1x128, .f32⟩
  | .local _ .vmem, ⟨8, _⟩ => ⟨S32x128, .f32⟩
  | .local _ .vmem, ⟨9, _⟩ => ⟨S1x128, .f32⟩
  | .local _ .vmem, ⟨10, _⟩ => ⟨S1x32, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S1x32, .f32⟩
  | .local _ .vmem, ⟨15, _⟩ => ⟨S1x32, .f32⟩
  | .local _ .vmem, ⟨16, _⟩ => ⟨S1x32, .f32⟩
  | .local _ .vmem, ⟨17, _⟩ => ⟨S32x1, .f32⟩
  | .local _ .vmem, ⟨18, _⟩ => ⟨S1x1, .f32⟩
  | .local _ .vmem, ⟨19, _⟩ => ⟨S4000x1, .f32⟩
  | .local _ .vmem, ⟨20, _⟩ => ⟨S4000x1, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | _, _ => ⟨S1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_v13 : Ref sig .tc := ⟨.hbm, 33, rfl⟩
abbrev main_v14 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4000x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1000x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1000x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S128_S1x128 : S128.ShapeCasts S1x128
  shapeCasts_S32_S1x32 : S32.ShapeCasts S1x32
  shapeCasts_S1_S1x1 : S1.ShapeCasts S1x1
  shapeCasts_S1000000x32_S250000x128 : S1000000x32.ShapeCasts S250000x128
  inb_S4000x16_S4000x16_0_0 : ∀ a, (![0, 0] : Fin 2 → Nat) a + S4000x16.size a ≤ S4000x16.size a
  h_S4000x16 : 0 < S4000x16.numel
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S1000x128_S4000x32 : S1000x128.ShapeCasts S4000x32
  inb_S16x128_S16x128_0_0 : ∀ a, (![0, 0] : Fin 2 → Nat) a + S16x128.size a ≤ S16x128.size a
  h_S16x128 : 0 < S16x128.numel
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S4000x128_o0_0_S4000x32 : S4000x128.Slices ![0, 0] S4000x32
  slices_S4000x128_o0_32_S4000x32 : S4000x128.Slices ![0, 32] S4000x32
  slices_S4000x128_o0_64_S4000x32 : S4000x128.Slices ![0, 64] S4000x32
  slices_S4000x128_o0_96_S4000x32 : S4000x128.Slices ![0, 96] S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S4000x32_S1000x128 : S4000x32.ShapeCasts S1000x128
  shapeCasts_S250000x128_S1000000x32 : S250000x128.ShapeCasts S1000000x32
  dot_S4000x16_S16x128_S4000x128_1_0_0_1_n_n_wf : DotDims.WF S4000x16 S16x128 S4000x128 [1] [0] [0] [1] [] []
  dot_S4000x32_S32x128_S4000x128_1_0_0_1_n_n_wf : DotDims.WF S4000x32 S32x128 S4000x128 [1] [0] [0] [1] [] []
  dot_S4000x32_S32x1_S4000x1_1_0_0_1_n_n_wf : DotDims.WF S4000x32 S32x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S1000000x16.size a
  hwx0_0 : ∀ i : grid0.Coords, EltTy.bits .f32 = 32 ∨ (Rect.block (s := S1000000x16) S4000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S250000x128.size a
  hwx0_1 : ∀ i : grid0.Coords, EltTy.bits .f32 = 32 ∨ (Rect.block (s := S250000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S250000x128.size a
  hwx0_2 : ∀ i : grid0.Coords, EltTy.bits .f32 = 32 ∨ (Rect.block (s := S250000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x32.size a ≤ S1x32.size a
  hwx0_13 : ∀ i : grid0.Coords, EltTy.bits .f32 = 32 ∨ (Rect.block (s := S1x32) S1x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32x1.size a ≤ S32x1.size a
  hwx0_14 : ∀ i : grid0.Coords, EltTy.bits .f32 = 32 ∨ (Rect.block (s := S32x1) S32x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4000x1.size a ≤ S1000000x1.size a
  hwx0_16 : ∀ i : grid0.Coords, EltTy.bits .f32 = 32 ∨ (Rect.block (s := S1000000x1) S4000x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1000x128.size a ≤ S250000x128.size a
  hwx0_17 : ∀ i : grid0.Coords, EltTy.bits .f32 = 32 ∨ (Rect.block (s := S250000x128) S1000x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1000x128.size a ≤ S250000x128.size a
  hwx0_18 : ∀ i : grid0.Coords, EltTy.bits .f32 = 32 ∨ (Rect.block (s := S250000x128) S1000x128.size (cc0_transform_18 i) (hinb0_18 i)).WholeWords (EltTy.packing .f32)

variable [Facts₀]

def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

abbrev win0_0 : Pipeline.Window sig grid0 :=
  Pipeline.Window.ofSpec (Memref.whole main_arg0) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S32x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v9) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v12_0) S4000x1.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v12_1) S1000x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v12_2) S1000x128.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S1000000x16 : Shape := ⟨2, ![1000000, 16]⟩
abbrev S2x4000000 : Shape := ⟨2, ![2, 4000000]⟩
abbrev S4000000 : Shape := ⟨1, ![4000000]⟩
abbrev S1000000x32 : Shape := ⟨2, ![1000000, 32]⟩
abbrev S16x128 : Shape := ⟨2, ![16, 128]⟩
abbrev S128 : Shape := ⟨1, ![128]⟩
abbrev S32x128 : Shape := ⟨2, ![32, 128]⟩
abbrev S32 : Shape := ⟨1, ![32]⟩
abbrev S32x1 : Shape := ⟨2, ![32, 1]⟩
abbrev S1 : Shape := ⟨1, ![1]⟩
abbrev S1000000x128 : Shape := ⟨2, ![1000000, 128]⟩
abbrev S1x128 : Shape := ⟨2, ![1, 128]⟩
abbrev S1x32 : Shape := ⟨2, ![1, 32]⟩
abbrev S_ : Shape := ⟨0, ![]⟩
abbrev S1000000x1 : Shape := ⟨2, ![1000000, 1]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S2x4000000, .i32⟩
  | .hbm, ⟨2, _⟩ => ⟨S4000000, .f32⟩
  | .hbm, ⟨3, _⟩ => ⟨S1000000x32, .f32⟩
  | .hbm, ⟨4, _⟩ => ⟨S1000000x32, .f32⟩
  | .hbm, ⟨5, _⟩ => ⟨S16x128, .f32⟩
  | .hbm, ⟨6, _⟩ => ⟨S128, .f32⟩
  | .hbm, ⟨7, _⟩ => ⟨S32x128, .f32⟩
  | .hbm, ⟨8, _⟩ => ⟨S128, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S32x1, .f32⟩
  | .hbm, ⟨17, _⟩ => ⟨S1, .f32⟩
  | .hbm, ⟨18, _⟩ => ⟨S1000000x128, .f32⟩
  | .hbm, ⟨19, _⟩ => ⟨S1x128, .f32⟩
  | .hbm, ⟨20, _⟩ => ⟨S1000000x128, .f32⟩
  | .hbm, ⟨21, _⟩ => ⟨S1000000x128, .f32⟩
  | .hbm, ⟨22, _⟩ => ⟨S1000000x128, .f32⟩
  | .hbm, ⟨23, _⟩ => ⟨S1x128, .f32⟩
  | .hbm, ⟨24, _⟩ => ⟨S1000000x128, .f32⟩
  | .hbm, ⟨25, _⟩ => ⟨S1000000x128, .f32⟩
  | .hbm, ⟨26, _⟩ => ⟨S1000000x128, .f32⟩
  | .hbm, ⟨27, _⟩ => ⟨S1000000x32, .f32⟩
  | .hbm, ⟨28, _⟩ => ⟨S1000000x32, .f32⟩
  | .hbm, ⟨29, _⟩ => ⟨S1000000x32, .f32⟩
  | .hbm, ⟨30, _⟩ => ⟨S1000000x32, .f32⟩
  | .hbm, ⟨31, _⟩ => ⟨S1x32, .f32⟩
  | .hbm, ⟨32, _⟩ => ⟨S1000000x32, .f32⟩
  | .hbm, ⟨33, _⟩ => ⟨S1000000x32, .f32⟩
  | .hbm, ⟨34, _⟩ => ⟨S1000000x32, .f32⟩
  | .hbm, ⟨35, _⟩ => ⟨S1x32, .f32⟩
  | .hbm, ⟨36, _⟩ => ⟨S1000000x32, .f32⟩
  | .hbm, ⟨37, _⟩ => ⟨S1000000x32, .f32⟩
  | .hbm, ⟨38, _⟩ => ⟨S1000000x32, .f32⟩
  | .hbm, ⟨39, _⟩ => ⟨S1000000x32, .f32⟩
  | .hbm, ⟨40, _⟩ => ⟨S_, .f32⟩
  | .hbm, ⟨41, _⟩ => ⟨S1000000x32, .f32⟩
  | .hbm, ⟨42, _⟩ => ⟨S1000000x32, .f32⟩
  | .hbm, ⟨43, _⟩ => ⟨S_, .f32⟩
  | .hbm, ⟨44, _⟩ => ⟨S1000000x32, .f32⟩
  | .hbm, ⟨45, _⟩ => ⟨S1000000x32, .f32⟩
  | .hbm, ⟨46, _⟩ => ⟨S1x32, .f32⟩
  | .hbm, ⟨47, _⟩ => ⟨S1000000x32, .f32⟩
  | .hbm, ⟨48, _⟩ => ⟨S1000000x32, .f32⟩
  | .hbm, ⟨49, _⟩ => ⟨S1000000x32, .f32⟩
  | .hbm, ⟨50, _⟩ => ⟨S1x32, .f32⟩
  | .hbm, ⟨51, _⟩ => ⟨S1000000x32, .f32⟩
  | .hbm, ⟨52, _⟩ => ⟨S1000000x32, .f32⟩
  | .hbm, ⟨53, _⟩ => ⟨S1000000x32, .f32⟩
  | .hbm, ⟨54, _⟩ => ⟨S1000000x32, .f32⟩
  | .hbm, ⟨55, _⟩ => ⟨S_, .f32⟩
  | .hbm, ⟨56, _⟩ => ⟨S1000000x32, .f32⟩
  | .hbm, ⟨57, _⟩ => ⟨S1000000x32, .f32⟩
  | .hbm, ⟨58, _⟩ => ⟨S_, .f32⟩
  | .hbm, ⟨59, _⟩ => ⟨S1000000x32, .f32⟩
  | .hbm, ⟨60, _⟩ => ⟨S1000000x32, .f32⟩
  | .hbm, ⟨61, _⟩ => ⟨S1x32, .f32⟩
  | .hbm, ⟨62, _⟩ => ⟨S1000000x32, .f32⟩
  | .hbm, ⟨63, _⟩ => ⟨S1000000x32, .f32⟩
  | .hbm, ⟨64, _⟩ => ⟨S1000000x32, .f32⟩
  | .hbm, ⟨65, _⟩ => ⟨S1000000x32, .f32⟩
  | .hbm, ⟨66, _⟩ => ⟨S1000000x32, .f32⟩
  | .hbm, ⟨67, _⟩ => ⟨S1000000x32, .f32⟩
  | .hbm, ⟨68, _⟩ => ⟨S1x32, .f32⟩
  | .hbm, ⟨69, _⟩ => ⟨S1000000x32, .f32⟩
  | .hbm, ⟨70, _⟩ => ⟨S1000000x32, .f32⟩
  | .hbm, ⟨71, _⟩ => ⟨S1000000x32, .f32⟩
  | .hbm, ⟨72, _⟩ => ⟨S1x32, .f32⟩
  | .hbm, ⟨73, _⟩ => ⟨S1000000x32, .f32⟩
  | .hbm, ⟨74, _⟩ => ⟨S1000000x32, .f32⟩
  | .hbm, ⟨75, _⟩ => ⟨S1000000x32, .f32⟩
  | .hbm, ⟨76, _⟩ => ⟨S1000000x32, .f32⟩
  | .hbm, ⟨77, _⟩ => ⟨S_, .f32⟩
  | .hbm, ⟨78, _⟩ => ⟨S1000000x32, .f32⟩
  | .hbm, ⟨79, _⟩ => ⟨S1000000x32, .f32⟩
  | .hbm, ⟨80, _⟩ => ⟨S_, .f32⟩
  | .hbm, ⟨81, _⟩ => ⟨S1000000x32, .f32⟩
  | .hbm, ⟨82, _⟩ => ⟨S1000000x32, .f32⟩
  | .hbm, ⟨83, _⟩ => ⟨S1000000x32, .f32⟩
  | .hbm, ⟨84, _⟩ => ⟨S1000000x32, .f32⟩
  | .hbm, ⟨85, _⟩ => ⟨S_, .f32⟩
  | .hbm, ⟨86, _⟩ => ⟨S1000000x32, .f32⟩
  | .hbm, ⟨87, _⟩ => ⟨S1000000x32, .f32⟩
  | .hbm, ⟨88, _⟩ => ⟨S1000000x1, .f32⟩
  | .hbm, ⟨89, _⟩ => ⟨S1x1, .f32⟩
  | .hbm, ⟨90, _⟩ => ⟨S1000000x1, .f32⟩
  | .hbm, ⟨91, _⟩ => ⟨S1000000x1, .f32⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_cst_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_1 : Ref sig .tc := ⟨.hbm, 55, rfl⟩
abbrev main_v35 : Ref sig .tc := ⟨.hbm, 56, rfl⟩
abbrev main_v36 : Ref sig .tc := ⟨.hbm, 57, rfl⟩
abbrev main_cst_2 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_3 : Ref sig .tc := ⟨.hbm, 77, rfl⟩
abbrev main_v55 : Ref sig .tc := ⟨.hbm, 78, rfl⟩
abbrev main_v56 : Ref sig .tc := ⟨.hbm, 79, rfl⟩
abbrev main_cst_4 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call0_cst : Ref sig .tc := ⟨.hbm, 85, rfl⟩
abbrev main_call0_v0 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  slices_S1000000x128_S1000000x32_0_0 : S1000000x128.Slices ![0, 0] S1000000x32
  slices_S1000000x128_S1000000x32_0_32 : S1000000x128.Slices ![0, 32] S1000000x32
  slices_S1000000x128_S1000000x32_0_64 : S1000000x128.Slices ![0, 64] S1000000x32
  slices_S1000000x128_S1000000x32_0_96 : S1000000x128.Slices ![0, 96] S1000000x32
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  dot_S1000000x16_S16x128_S1000000x128_1_0_0_1_n_n_wf : DotDims.WF S1000000x16 S16x128 S1000000x128 [1] [0] [0] [1] [] []
  dot_S1000000x32_S32x128_S1000000x128_1_0_0_1_n_n_wf : DotDims.WF S1000000x32 S32x128 S1000000x128 [1] [0] [0] [1] [] []
  dot_S1000000x32_S32x1_S1000000x1_1_0_0_1_n_n_wf : DotDims.WF S1000000x32 S32x1 S1000000x1 [1] [0] [0] [1] [] []

variable [Facts₀]

def dot_S1000000x16_S16x128_S1000000x128_1_0_0_1_n_n : DotDims S1000000x16 S16x128 S1000000x128 where
  lhsContracting := [1]
  rhsContracting := [0]
  lhsNonContracting := [0]
  rhsNonContracting := [1]
  lhsBatch := []
  rhsBatch := []
  wf := dot_S1000000x16_S16x128_S1000000x128_1_0_0_1_n_n_wf
def dot_S1000000x32_S32x128_S1000000x128_1_0_0_1_n_n : DotDims S1000000x32 S32x128 S1000000x128 where
  lhsContracting := [1]
  rhsContracting := [0]
  lhsNonContracting := [0]
  rhsNonContracting := [1]
  lhsBatch := []
  rhsBatch := []
  wf := dot_S1000000x32_S32x128_S1000000x128_1_0_0_1_n_n_wf
def dot_S1000000x32_S32x1_S1000000x1_1_0_0_1_n_n : DotDims S1000000x32 S32x1 S1000000x1 where
  lhsContracting := [1]
  rhsContracting := [0]
  lhsNonContracting := [0]
  rhsNonContracting := [1]
  lhsBatch := []
  rhsBatch := []
  wf := dot_S1000000x32_S32x1_S1000000x1_1_0_0_1_n_n_wf

class Facts : Prop extends Facts₀ where

variable [Facts]
-- ==== Proof.GateCell.lean ====
/-
  The gated cell update as scalar functions of the argument arrays, over the extended reals.

  For node `n` (a row of the feature matrix `X`, of the hidden state `H` and of the cell state `C`) and hidden
  unit `j`, the four stacked pre-activations are the columns `j`, `32 + j`, `64 + j`, `96 + j` of
  `(X·Wx + bx) + (H·Wh + bh)`.  The input and forget gates see the old cell state through a peephole weight,
  the output gate sees the NEW cell state:
    I = σ(g_j + w_ci[j]·C[n,j] + b_i[j]),          F = σ(g_{32+j} + w_cf[j]·C[n,j] + b_f[j]),
    T = tanh(g_{64+j} + b_c[j]),                   C' = F·C[n,j] + I·T,
    O = σ(g_{96+j} + w_co[j]·C' + b_o[j]),         H' = O·tanh C',
    out[n] = Σ_k max(H'[n,k], 0)·Wl[k,0] + bl[0].
  Nothing here needs finiteness: both programs are this one function on every extended real, and the only law
  used between their two spellings is associativity of addition.
-/
import Idealize.ShloMosaic.PureOps.Ideal
import Idealize.ShloMosaic.PureOps.IdealRules
import Idealize.ShloMosaic.Lib.ValueIdx

noncomputable section

open scoped BigOperators

namespace Cert.GateCell

open Idealize.ShloMosaic Idealize.ShloMosaic.ValueIdx

/-- A matrix of extended reals with literal extents. -/
abbrev Mat (a b : Nat) : Type := (⟨2, ![a, b]⟩ : Shape).Idx → EReal
/-- A vector of extended reals with a literal extent. -/
abbrev Row (a : Nat) : Type := (⟨1, ![a]⟩ : Shape).Idx → EReal

/-- The zero the rectifier compares with: the all-zero word, kept as a word (both programs carry the same one). -/
abbrev zeroWord : EReal := Ideal.ofBits .f32 0x00000000#32

/-- The columns of the four stacked gates for hidden unit `j`. -/
abbrev colI (j : Fin 32) : Fin 128 := ⟨j.val, by omega⟩
abbrev colF (j : Fin 32) : Fin 128 := ⟨32 + j.val, by omega⟩
abbrev colT (j : Fin 32) : Fin 128 := ⟨64 + j.val, by omega⟩
abbrev colO (j : Fin 32) : Fin 128 := ⟨96 + j.val, by omega⟩

section
variable {N : Nat} (X : Mat N 16) (H C : Mat N 32) (Wx : Mat 16 128) (bx : Row 128) (Wh : Mat 32 128) (bh : Row 128)
  (wci wcf wco bi bf bc bo : Row 32) (Wl : Mat 32 1) (bl : Row 1)

/-- Pre-activation `q` of node `n`: `(X·Wx + bx) + (H·Wh + bh)` at `(n, q)`. -/
def pre (n : Fin N) (q : Fin 128) : EReal :=
  ((∑ k : Fin 16, X (ix2 n k) * Wx (ix2 k q)) + bx (ix1 q)) + ((∑ k : Fin 32, H (ix2 n k) * Wh (ix2 k q)) + bh (ix1 q))

/-- The same with the sum grouped from the left, `((X·Wx + bx) + H·Wh) + bh`: addition of extended reals is
    associative. -/
theorem pre_left (n : Fin N) (q : Fin 128) :
    (((∑ k : Fin 16, X (ix2 n k) * Wx (ix2 k q)) + bx (ix1 q)) + (∑ k : Fin 32, H (ix2 n k) * Wh (ix2 k q))) + bh (ix1 q)
      = pre X H Wx bx Wh bh n q := by
  unfold pre; rw [add_assoc]

/-- The new cell state of node `n`, unit `j`. -/
def cellNew (n : Fin N) (j : Fin 32) : EReal :=
  Ideal.logistic (pre X H Wx bx Wh bh n (colF j) + wcf (ix1 j) * C (ix2 n j) + bf (ix1 j)) * C (ix2 n j)
    + Ideal.logistic (pre X H Wx bx Wh bh n (colI j) + wci (ix1 j) * C (ix2 n j) + bi (ix1 j))
      * Ideal.tanh (pre X H Wx bx Wh bh n (colT j) + bc (ix1 j))

/-- The new hidden state of node `n`, unit `j`. -/
def hidNew (n : Fin N) (j : Fin 32) : EReal :=
  Ideal.logistic (pre X H Wx bx Wh bh n (colO j) + wco (ix1 j) * cellNew X H C Wx bx Wh bh wci wcf bi bf bc n j + bo (ix1 j))
    * Ideal.tanh (cellNew X H C Wx bx Wh bh wci wcf bi bf bc n j)

/-- The head's output for node `n`: the rectified new hidden state against `Wl`, plus `bl`. -/
def headOut (n : Fin N) : EReal :=
  (∑ k : Fin 32, max (hidNew X H C Wx bx Wh bh wci wcf wco bi bf bc bo n k) zeroWord * Wl (ix2 k (0 : Fin 1))) + bl (ix1 (0 : Fin 1))

/-- The three results as whole arrays: new cell state, new hidden state, head output. -/
def cellArr : Mat N 32 := fun i => cellNew X H C Wx bx Wh bh wci wcf bi bf bc (i 0) (i 1)
def hidArr : Mat N 32 := fun i => hidNew X H C Wx bx Wh bh wci wcf wco bi bf bc bo (i 0) (i 1)
def outArr : Mat N 1 := fun i => headOut X H C Wx bx Wh bh wci wcf wco bi bf bc bo Wl bl (i 0)

end

/-! ## One node's values depend on that node's rows only

If row `n` of `X`, `H`, `C` is row `n'` of `X'`, `H'`, `C'` (a block of the arrays against the arrays themselves),
the node's values agree. -/
section Rows
variable {N M : Nat} (X : Mat N 16) (X' : Mat M 16) (H C : Mat N 32) (H' C' : Mat M 32) (Wx : Mat 16 128) (bx : Row 128)
  (Wh : Mat 32 128) (bh : Row 128) (wci wcf wco bi bf bc bo : Row 32) (Wl : Mat 32 1) (bl : Row 1) (n : Fin N) (n' : Fin M)

theorem pre_row (hX : ∀ k : Fin 16, X (ix2 n k) = X' (ix2 n' k)) (hH : ∀ k : Fin 32, H (ix2 n k) = H' (ix2 n' k)) (q : Fin 128) :
    pre X H Wx bx Wh bh n q = pre X' H' Wx bx Wh bh n' q := by
  unfold pre; simp only [hX, hH]

theorem cellNew_row (hX : ∀ k : Fin 16, X (ix2 n k) = X' (ix2 n' k)) (hH : ∀ k : Fin 32, H (ix2 n k) = H' (ix2 n' k))
    (hC : ∀ k : Fin 32, C (ix2 n k) = C' (ix2 n' k)) (j : Fin 32) :
    cellNew X H C Wx bx Wh bh wci wcf bi bf bc n j = cellNew X' H' C' Wx bx Wh bh wci wcf bi bf bc n' j := by
  unfold cellNew; simp only [hC, pre_row X X' H H' Wx bx Wh bh n n' hX hH]

theorem hidNew_row (hX : ∀ k : Fin 16, X (ix2 n k) = X' (ix2 n' k)) (hH : ∀ k : Fin 32, H (ix2 n k) = H' (ix2 n' k))
    (hC : ∀ k : Fin 32, C (ix2 n k) = C' (ix2 n' k)) (j : Fin 32) :
    hidNew X H C Wx bx Wh bh wci wcf wco bi bf bc bo n j = hidNew X' H' C' Wx bx Wh bh wci wcf wco bi bf bc bo n' j := by
  unfold hidNew
  simp only [pre_row X X' H H' Wx bx Wh bh n n' hX hH, cellNew_row X X' H C H' C' Wx bx Wh bh wci wcf bi bf bc n n' hX hH hC]

theorem headOut_row (hX : ∀ k : Fin 16, X (ix2 n k) = X' (ix2 n' k)) (hH : ∀ k : Fin 32, H (ix2 n k) = H' (ix2 n' k))
    (hC : ∀ k : Fin 32, C (ix2 n k) = C' (ix2 n' k)) :
    headOut X H C Wx bx Wh bh wci wcf wco bi bf bc bo Wl bl n = headOut X' H' C' Wx bx Wh bh wci wcf wco bi bf bc bo Wl bl n' := by
  unfold headOut
  simp only [hidNew_row X X' H C H' C' Wx bx Wh bh wci wcf wco bi bf bc bo n n' hX hH hC]

end Rows

/-- The logistic function spelt as a quotient, `1 / (1 + e^(-x))` with the one written as its word, is the logistic
    function. -/
theorem logistic_of_words (x : EReal) :
    Ideal.div (Ideal.ofBits .f32 0x3F800000#32) (Ideal.ofBits .f32 0x3F800000#32 + Ideal.exp (-x)) = Ideal.logistic x := by
  have h1 : Ideal.ofBits .f32 0x3F800000#32 = 1 := IdealRules.sign_bit.ideal_onePat .f32
  rw [h1]; rfl

end Cert.GateCell

end
-- ==== Proof.RefIsCell.lean ====
/-
  The reference program computes the gated cell update: each of its three results, read at an index, is the
  scalar function of the argument arrays (GateCell.lean).  The reference's pre-activations are already grouped as
  `(X·Wx + bx) + (H·Wh + bh)`; its logistic function is spelt `1 / (1 + e^(-x))`, which is the logistic function.
-/
import proofs.«126688_j15693810499716_2_alg».proof.Proof.Gen.ReferenceIdeal.Read
import proofs.«126688_j15693810499716_2_alg».proof.Proof.GateCell

noncomputable section

open scoped BigOperators

namespace Cert.RefIsCell

open Cert.ReferenceIdeal Cert.ReferenceIdeal.Read Idealize.ShloMosaic Idealize.ShloMosaic.ValueIdx Cert.GateCell

variable (x0 : Mat 1000000 16) (x3 x4 : Mat 1000000 32) (x5 : Mat 16 128) (x6 : Row 128) (x7 : Mat 32 128) (x8 : Row 128)
  (x9 x10 x11 x12 x13 x14 x15 : Row 32) (x16 : Mat 32 1) (x17 : Row 1)

/-- The stacked pre-activations: the sum of the two biased matrix products at `(n, q)`. -/
theorem pre_eq (n : Fin 1000000) (q : Fin 128) :
    val_main_v8 (F := Ideal) x0 x3 x5 x6 x7 x8 (ix2 n q) = pre x0 x3 x5 x6 x7 x8 n q := by
  have e1 : ∀ k : Fin 16, lidx_main_v0 (ix2 n q) k = ix2 n k := fun k => funext fun a => by
    match a with | ⟨0, _⟩ => rfl | ⟨1, _⟩ => rfl
  have e2 : ∀ k : Fin 16, ridx_main_v0 (ix2 n q) k = ix2 k q := fun k => funext fun a => by
    match a with | ⟨0, _⟩ => rfl | ⟨1, _⟩ => rfl
  have e3 : ∀ k : Fin 32, lidx_main_v4 (ix2 n q) k = ix2 n k := fun k => funext fun a => by
    match a with | ⟨0, _⟩ => rfl | ⟨1, _⟩ => rfl
  have e4 : ∀ k : Fin 32, ridx_main_v4 (ix2 n q) k = ix2 k q := fun k => funext fun a => by
    match a with | ⟨0, _⟩ => rfl | ⟨1, _⟩ => rfl
  have e5 : idx_main_v1 (idx_main_v2 (ix2 n q)) = ix1 q := funext fun a => by match a with | ⟨0, _⟩ => rfl
  have e6 : idx_main_v5 (idx_main_v6 (ix2 n q)) = ix1 q := funext fun a => by match a with | ⟨0, _⟩ => rfl
  rw [val_main_v8_apply, val_main_v3_apply, val_main_v7_apply, val_main_v0_apply, val_main_v4_apply, val_main_v2_apply,
    val_main_v1_apply, val_main_v6_apply, val_main_v5_apply]
  simp only [e1, e2, e3, e4, e5, e6]
  rfl

/-! The four column slices of the stacked pre-activations, and the seven row vectors broadcast along the nodes. -/
section
variable (n : Fin 1000000) (j : Fin 32)
theorem sliceI : idx_main_v9 (ix2 n j) = ix2 n (colI j) := funext fun a => by match a with | ⟨0, _⟩ => rfl | ⟨1, _⟩ => rfl
theorem sliceF : idx_main_v10 (ix2 n j) = ix2 n (colF j) := funext fun a => by match a with | ⟨0, _⟩ => rfl | ⟨1, _⟩ => rfl
theorem sliceT : idx_main_v11 (ix2 n j) = ix2 n (colT j) := funext fun a => by match a with | ⟨0, _⟩ => rfl | ⟨1, _⟩ => rfl
theorem sliceO : idx_main_v12 (ix2 n j) = ix2 n (colO j) := funext fun a => by match a with | ⟨0, _⟩ => rfl | ⟨1, _⟩ => rfl
theorem vec_wci : idx_main_v13 (idx_main_v14 (ix2 n j)) = ix1 j := funext fun a => by match a with | ⟨0, _⟩ => rfl
theorem vec_bi : idx_main_v17 (idx_main_v18 (ix2 n j)) = ix1 j := funext fun a => by match a with | ⟨0, _⟩ => rfl
theorem vec_wcf : idx_main_v26 (idx_main_v27 (ix2 n j)) = ix1 j := funext fun a => by match a with | ⟨0, _⟩ => rfl
theorem vec_bf : idx_main_v30 (idx_main_v31 (ix2 n j)) = ix1 j := funext fun a => by match a with | ⟨0, _⟩ => rfl
theorem vec_bc : idx_main_v39 (idx_main_v40 (ix2 n j)) = ix1 j := funext fun a => by match a with | ⟨0, _⟩ => rfl
theorem vec_wco : idx_main_v46 (idx_main_v47 (ix2 n j)) = ix1 j := funext fun a => by match a with | ⟨0, _⟩ => rfl
theorem vec_bo : idx_main_v50 (idx_main_v51 (ix2 n j)) = ix1 j := funext fun a => by match a with | ⟨0, _⟩ => rfl
end

/-- The reference's new cell state at `(n, j)`. -/
theorem cell_at (n : Fin 1000000) (j : Fin 32) :
    val_main_v45 (F := Ideal) x0 x3 x4 x5 x6 x7 x8 x9 x10 x12 x13 x14 (ix2 n j)
      = cellNew x0 x3 x4 x5 x6 x7 x8 x9 x10 x12 x13 x14 n j := by
  simp only [val_main_v45_apply, val_main_v44_apply, val_main_v43_apply, val_main_v42_apply, val_main_v41_apply, val_main_v40_apply, val_main_v39_apply, val_main_v38_apply, val_main_v37_apply, val_main_cst_2_apply, val_main_v36_apply, val_main_v35_apply, val_main_cst_1_apply, val_main_v34_apply, val_main_v33_apply, val_main_v32_apply, val_main_v31_apply, val_main_v30_apply, val_main_v29_apply, val_main_v28_apply, val_main_v27_apply, val_main_v26_apply, val_main_v25_apply, val_main_v24_apply, val_main_cst_0_apply, val_main_v23_apply, val_main_v22_apply, val_main_cst_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, sliceI, sliceF, sliceT, sliceO, vec_wci, vec_bi, vec_wcf, vec_bf, vec_bc, vec_wco, vec_bo, pre_eq]
  unfold cellNew
  rw [← logistic_of_words, ← logistic_of_words]
  rfl

/-- The reference's new hidden state at `(n, j)`. -/
theorem hid_at (n : Fin 1000000) (j : Fin 32) :
    val_main_v60 (F := Ideal) x0 x3 x4 x5 x6 x7 x8 x9 x10 x11 x12 x13 x14 x15 (ix2 n j)
      = hidNew x0 x3 x4 x5 x6 x7 x8 x9 x10 x11 x12 x13 x14 x15 n j := by
  simp only [val_main_v60_apply, val_main_v59_apply, val_main_v58_apply, val_main_v57_apply, val_main_cst_4_apply, val_main_v56_apply,
    val_main_v55_apply, val_main_cst_3_apply, val_main_v54_apply, val_main_v53_apply, val_main_v52_apply, val_main_v51_apply,
    val_main_v50_apply, val_main_v49_apply, val_main_v48_apply, val_main_v47_apply, val_main_v46_apply, val_main_v12_apply,
    sliceI, sliceF, sliceT, sliceO, vec_wci, vec_bi, vec_wcf, vec_bf, vec_bc, vec_wco, vec_bo, pre_eq, cell_at]
  unfold hidNew
  rw [← logistic_of_words]
  rfl

/-- The reference's head output for node `n`. -/
theorem out_at (n : Fin 1000000) :
    val_main_v65 (F := Ideal) x0 x3 x4 x5 x6 x7 x8 x9 x10 x11 x12 x13 x14 x15 x16 x17 (ix2 n (0 : Fin 1))
      = headOut x0 x3 x4 x5 x6 x7 x8 x9 x10 x11 x12 x13 x14 x15 x16 x17 n := by
  have e1 : ∀ k : Fin 32, lidx_main_v62 (ix2 n (0 : Fin 1)) k = ix2 n k := fun k => funext fun a => by
    match a with | ⟨0, _⟩ => rfl | ⟨1, _⟩ => rfl
  have e2 : ∀ k : Fin 32, ridx_main_v62 (ix2 n (0 : Fin 1)) k = ix2 k (0 : Fin 1) := fun k => funext fun a => by
    match a with | ⟨0, _⟩ => rfl | ⟨1, _⟩ => rfl
  have e3 : idx_main_v63 (idx_main_v64 (ix2 n (0 : Fin 1))) = ix1 (0 : Fin 1) := funext fun a => by match a with | ⟨0, _⟩ => rfl
  rw [val_main_v65_apply, val_main_v62_apply, val_main_v64_apply, val_main_v63_apply]
  simp only [e1, e2, e3, val_main_v61_apply, val_main_call0_v0_apply, val_main_call0_cst_apply, hid_at]
  rfl

/-! The three results as whole arrays. -/

theorem cell_eq : val_main_v45 (F := Ideal) x0 x3 x4 x5 x6 x7 x8 x9 x10 x12 x13 x14
    = cellArr x0 x3 x4 x5 x6 x7 x8 x9 x10 x12 x13 x14 := by
  funext i
  obtain ⟨n, j, rfl⟩ : ∃ (n : Fin 1000000) (j : Fin 32), i = ix2 n j := ⟨i 0, i 1, eq_ix2 i⟩
  exact cell_at x0 x3 x4 x5 x6 x7 x8 x9 x10 x12 x13 x14 n j

theorem hid_eq : val_main_v60 (F := Ideal) x0 x3 x4 x5 x6 x7 x8 x9 x10 x11 x12 x13 x14 x15
    = hidArr x0 x3 x4 x5 x6 x7 x8 x9 x10 x11 x12 x13 x14 x15 := by
  funext i
  obtain ⟨n, j, rfl⟩ : ∃ (n : Fin 1000000) (j : Fin 32), i = ix2 n j := ⟨i 0, i 1, eq_ix2 i⟩
  exact hid_at x0 x3 x4 x5 x6 x7 x8 x9 x10 x11 x12 x13 x14 x15 n j

theorem out_eq : val_main_v65 (F := Ideal) x0 x3 x4 x5 x6 x7 x8 x9 x10 x11 x12 x13 x14 x15 x16 x17
    = outArr x0 x3 x4 x5 x6 x7 x8 x9 x10 x11 x12 x13 x14 x15 x16 x17 := by
  funext i
  obtain ⟨n, z, rfl⟩ : ∃ (n : Fin 1000000) (z : Fin 1), i = ix2 n z := ⟨i 0, i 1, eq_ix2 i⟩
  obtain rfl : z = 0 := Subsingleton.elim _ _
  exact out_at x0 x3 x4 x5 x6 x7 x8 x9 x10 x11 x12 x13 x14 x15 x16 x17 n

end Cert.RefIsCell

end
-- ==== Proof.KernelRow.lean ====
/-
  One row of the kernel body.  The body works on a block of 4000 nodes; the hidden and cell states reach it packed
  four nodes to a 128-lane row, and are unpacked (and the results packed again) by row-major reshapes.  Read at an
  index, every operation of the body acts on one row `p` of the block: the matrix products are sums over the
  contracted axis, the biases and peephole weights are rows broadcast along the nodes, the four gates are column
  slices of the stacked pre-activations.
-/
import proofs.«126688_j15693810499716_2_alg».proof.Proof.Gen.KernelIdeal.Skeleton
import proofs.«126688_j15693810499716_2_alg».proof.Proof.GateCell
import Idealize.ShloMosaic.Lib.Pipeline.Value
import Idealize.ShloMosaic.Lib.ValueIdx
import Idealize.ShloMosaic.PureOps.Ideal.Laws

noncomputable section

open scoped BigOperators

namespace Cert.KernelRow

open Cert.KernelIdeal Cert.KernelIdeal.Gen Idealize.ShloMosaic Idealize.ShloMosaic.ValueIdx Cert.GateCell

/-! ## The row-major reshapes between 4 nodes × 32 units and one 128-lane row -/

section Layout
variable {α : Type}

/-- Where node `p`, unit `k` of a block sits in the packed block: row `p / 4`, lane `32·(p mod 4) + k`. -/
abbrev packRow (p : Fin 4000) : Fin 1000 := ⟨p.val / 4, by omega⟩
abbrev packLane (p : Fin 4000) (k : Fin 32) : Fin 128 := ⟨32 * (p.val % 4) + k.val, by omega⟩
/-- Which node and unit lane `l` of packed row `r` holds. -/
abbrev nodeOf (r : Fin 1000) (l : Fin 128) : Fin 4000 := ⟨4 * r.val + l.val / 32, by omega⟩
abbrev unitOf (l : Fin 128) : Fin 32 := ⟨l.val % 32, by omega⟩

/-- Unpacking reads node `p`, unit `k` from its place in the packed block. -/
theorem unpack_apply (x : S1000x128.Idx → α) (h : S1000x128.ShapeCasts S4000x32) (p : Fin 4000) (k : Fin 32) :
    shapeCast S4000x32 x h (ix2 p k) = x (ix2 (packRow p) (packLane p k)) :=
  shapeCast_apply x h _ _ (by
    rw [Shape.rowMajor_val_two, Shape.rowMajor_val_two]
    show (p.val / 4) * 128 + (32 * (p.val % 4) + k.val) = p.val * 32 + k.val
    omega)

/-- Packing reads lane `l` of row `r` from the node and unit it holds. -/
theorem pack_apply (y : S4000x32.Idx → α) (h : S4000x32.ShapeCasts S1000x128) (r : Fin 1000) (l : Fin 128) :
    shapeCast S1000x128 y h (ix2 r l) = y (ix2 (nodeOf r l) (unitOf l)) :=
  shapeCast_apply y h _ _ (by
    rw [Shape.rowMajor_val_two, Shape.rowMajor_val_two]
    show (4 * r.val + l.val / 32) * 32 + l.val % 32 = r.val * 128 + l.val
    omega)

/-- A 128-lane row broadcast along the 4000 nodes. -/
theorem bcast128_apply (v : S1x128.Idx → α) (h : S1x128.Broadcasts S4000x128) (p : Fin 4000) (q : Fin 128) :
    broadcastTo S4000x128 v h (ix2 p q) = v (ix2 (0 : Fin 1) q) :=
  broadcastTo_apply v h _ _ (fun a => by
    match a with
    | ⟨0, _⟩ => rfl
    | ⟨1, _⟩ => rfl)

/-- A 32-lane row broadcast along the 4000 nodes. -/
theorem bcast32_apply (v : S1x32.Idx → α) (h : S1x32.Broadcasts S4000x32) (p : Fin 4000) (j : Fin 32) :
    broadcastTo S4000x32 v h (ix2 p j) = v (ix2 (0 : Fin 1) j) :=
  broadcastTo_apply v h _ _ (fun a => by
    match a with
    | ⟨0, _⟩ => rfl
    | ⟨1, _⟩ => rfl)

/-- A single value broadcast along the 4000 nodes. -/
theorem bcast1_apply (v : S1x1.Idx → α) (h : S1x1.Broadcasts S4000x1) (p : Fin 4000) (z : Fin 1) :
    broadcastTo S4000x1 v h (ix2 p z) = v (ix2 (0 : Fin 1) (0 : Fin 1)) :=
  broadcastTo_apply v h _ _ (fun a => by
    match a with
    | ⟨0, _⟩ => rfl
    | ⟨1, _⟩ => rfl)

/-- The column slice of the stacked pre-activations at offset `o`. -/
theorem gateSlice_apply (o : Nat) (ho : o + 32 ≤ 128) (v : S4000x128.Idx → α) (h : S4000x128.Slices ![0, o] S4000x32) (p : Fin 4000) (j : Fin 32) :
    extractStridedSlice S4000x32 ![0, o] v h (ix2 p j) = v (ix2 p (⟨o + j.val, by omega⟩ : Fin 128)) :=
  extractStridedSlice_apply _ v h _ _ (fun a => by
    match a with
    | ⟨0, _⟩ => show p.val = 0 + p.val; omega
    | ⟨1, _⟩ => rfl)

end Layout

/-! ## The three matrix products into a zero accumulator, as sums over the contracted axis -/

theorem mulWx_apply_lhs0 (i : S4000x128.Idx) (c : dot_S4000x16_S16x128_S4000x128_1_0_0_1_n_n.contr.Idx) : (dot_S4000x16_S16x128_S4000x128_1_0_0_1_n_n.lhsIdx i c 0).val = (i 0).val := by
  unfold DotDims.lhsIdx
  rw [dif_neg (show ¬(0 : Fin S4000x16.rank) ∈ dot_S4000x16_S16x128_S4000x128_1_0_0_1_n_n.lhsBatch by decide),
    dif_pos (show (0 : Fin S4000x16.rank) ∈ dot_S4000x16_S16x128_S4000x128_1_0_0_1_n_n.lhsNonContracting by decide)]
  rfl
theorem mulWx_apply_rhs1 (i : S4000x128.Idx) (c : dot_S4000x16_S16x128_S4000x128_1_0_0_1_n_n.contr.Idx) : (dot_S4000x16_S16x128_S4000x128_1_0_0_1_n_n.rhsIdx i c 1).val = (i 1).val := by
  unfold DotDims.rhsIdx
  rw [dif_neg (show ¬(1 : Fin S16x128.rank) ∈ dot_S4000x16_S16x128_S4000x128_1_0_0_1_n_n.rhsBatch by decide),
    dif_pos (show (1 : Fin S16x128.rank) ∈ dot_S4000x16_S16x128_S4000x128_1_0_0_1_n_n.rhsNonContracting by decide)]
  rfl
/-- The features against \`Wx\`: row \`p\` of the block against column \`q\`. -/
theorem mulWx_apply {φ₁ φ₂ : FTy} (l : FVec Ideal S4000x16 φ₁) (r : FVec Ideal S16x128 φ₂) (p : Fin 4000) (q : Fin 128) :
    matmul dot_S4000x16_S16x128_S4000x128_1_0_0_1_n_n none l r (constant S4000x128 .f32 0x00000000#32) (ix2 p q)
      = ∑ k : Fin 16, l (ix2 p k) * r (ix2 k q) := by
  show FloatOps.matmul dot_S4000x16_S16x128_S4000x128_1_0_0_1_n_n none l r (constant S4000x128 .f32 0x00000000#32) (ix2 p q) = _
  rw [Ideal.matmul_constant_zero_apply, ← Equiv.sum_comp (contrEquiv1 dot_S4000x16_S16x128_S4000x128_1_0_0_1_n_n 16 rfl rfl).symm]
  refine Finset.sum_congr rfl fun k _ => ?_
  have hk := contrEquiv1_symm_val dot_S4000x16_S16x128_S4000x128_1_0_0_1_n_n 16 rfl rfl k
  have el : dot_S4000x16_S16x128_S4000x128_1_0_0_1_n_n.lhsIdx (ix2 p q) ((contrEquiv1 dot_S4000x16_S16x128_S4000x128_1_0_0_1_n_n 16 rfl rfl).symm k) = ix2 p k :=
    funext fun a => Fin.ext (by
      match a with
      | ⟨0, _⟩ => exact mulWx_apply_lhs0 _ _
      | ⟨1, _⟩ => exact (dot_S4000x16_S16x128_S4000x128_1_0_0_1_n_n.lhsIdx_val_of_single rfl _ _).trans hk)
  have er : dot_S4000x16_S16x128_S4000x128_1_0_0_1_n_n.rhsIdx (ix2 p q) ((contrEquiv1 dot_S4000x16_S16x128_S4000x128_1_0_0_1_n_n 16 rfl rfl).symm k) = ix2 k q :=
    funext fun a => Fin.ext (by
      match a with
      | ⟨0, _⟩ => exact (dot_S4000x16_S16x128_S4000x128_1_0_0_1_n_n.rhsIdx_val_of_single rfl _ _).trans hk
      | ⟨1, _⟩ => exact mulWx_apply_rhs1 _ _)
  rw [el, er]

theorem mulWh_apply_lhs0 (i : S4000x128.Idx) (c : dot_S4000x32_S32x128_S4000x128_1_0_0_1_n_n.contr.Idx) : (dot_S4000x32_S32x128_S4000x128_1_0_0_1_n_n.lhsIdx i c 0).val = (i 0).val := by
  unfold DotDims.lhsIdx
  rw [dif_neg (show ¬(0 : Fin S4000x32.rank) ∈ dot_S4000x32_S32x128_S4000x128_1_0_0_1_n_n.lhsBatch by decide),
    dif_pos (show (0 : Fin S4000x32.rank) ∈ dot_S4000x32_S32x128_S4000x128_1_0_0_1_n_n.lhsNonContracting by decide)]
  rfl
theorem mulWh_apply_rhs1 (i : S4000x128.Idx) (c : dot_S4000x32_S32x128_S4000x128_1_0_0_1_n_n.contr.Idx) : (dot_S4000x32_S32x128_S4000x128_1_0_0_1_n_n.rhsIdx i c 1).val = (i 1).val := by
  unfold DotDims.rhsIdx
  rw [dif_neg (show ¬(1 : Fin S32x128.rank) ∈ dot_S4000x32_S32x128_S4000x128_1_0_0_1_n_n.rhsBatch by decide),
    dif_pos (show (1 : Fin S32x128.rank) ∈ dot_S4000x32_S32x128_S4000x128_1_0_0_1_n_n.rhsNonContracting by decide)]
  rfl
/-- The hidden state against \`Wh\`. -/
theorem mulWh_apply {φ₁ φ₂ : FTy} (l : FVec Ideal S4000x32 φ₁) (r : FVec Ideal S32x128 φ₂) (p : Fin 4000) (q : Fin 128) :
    matmul dot_S4000x32_S32x128_S4000x128_1_0_0_1_n_n none l r (constant S4000x128 .f32 0x00000000#32) (ix2 p q)
      = ∑ k : Fin 32, l (ix2 p k) * r (ix2 k q) := by
  show FloatOps.matmul dot_S4000x32_S32x128_S4000x128_1_0_0_1_n_n none l r (constant S4000x128 .f32 0x00000000#32) (ix2 p q) = _
  rw [Ideal.matmul_constant_zero_apply, ← Equiv.sum_comp (contrEquiv1 dot_S4000x32_S32x128_S4000x128_1_0_0_1_n_n 32 rfl rfl).symm]
  refine Finset.sum_congr rfl fun k _ => ?_
  have hk := contrEquiv1_symm_val dot_S4000x32_S32x128_S4000x128_1_0_0_1_n_n 32 rfl rfl k
  have el : dot_S4000x32_S32x128_S4000x128_1_0_0_1_n_n.lhsIdx (ix2 p q) ((contrEquiv1 dot_S4000x32_S32x128_S4000x128_1_0_0_1_n_n 32 rfl rfl).symm k) = ix2 p k :=
    funext fun a => Fin.ext (by
      match a with
      | ⟨0, _⟩ => exact mulWh_apply_lhs0 _ _
      | ⟨1, _⟩ => exact (dot_S4000x32_S32x128_S4000x128_1_0_0_1_n_n.lhsIdx_val_of_single rfl _ _).trans hk)
  have er : dot_S4000x32_S32x128_S4000x128_1_0_0_1_n_n.rhsIdx (ix2 p q) ((contrEquiv1 dot_S4000x32_S32x128_S4000x128_1_0_0_1_n_n 32 rfl rfl).symm k) = ix2 k q :=
    funext fun a => Fin.ext (by
      match a with
      | ⟨0, _⟩ => exact (dot_S4000x32_S32x128_S4000x128_1_0_0_1_n_n.rhsIdx_val_of_single rfl _ _).trans hk
      | ⟨1, _⟩ => exact mulWh_apply_rhs1 _ _)
  rw [el, er]

theorem mulWl_apply_lhs0 (i : S4000x1.Idx) (c : dot_S4000x32_S32x1_S4000x1_1_0_0_1_n_n.contr.Idx) : (dot_S4000x32_S32x1_S4000x1_1_0_0_1_n_n.lhsIdx i c 0).val = (i 0).val := by
  unfold DotDims.lhsIdx
  rw [dif_neg (show ¬(0 : Fin S4000x32.rank) ∈ dot_S4000x32_S32x1_S4000x1_1_0_0_1_n_n.lhsBatch by decide),
    dif_pos (show (0 : Fin S4000x32.rank) ∈ dot_S4000x32_S32x1_S4000x1_1_0_0_1_n_n.lhsNonContracting by decide)]
  rfl
theorem mulWl_apply_rhs1 (i : S4000x1.Idx) (c : dot_S4000x32_S32x1_S4000x1_1_0_0_1_n_n.contr.Idx) : (dot_S4000x32_S32x1_S4000x1_1_0_0_1_n_n.rhsIdx i c 1).val = (i 1).val := by
  unfold DotDims.rhsIdx
  rw [dif_neg (show ¬(1 : Fin S32x1.rank) ∈ dot_S4000x32_S32x1_S4000x1_1_0_0_1_n_n.rhsBatch by decide),
    dif_pos (show (1 : Fin S32x1.rank) ∈ dot_S4000x32_S32x1_S4000x1_1_0_0_1_n_n.rhsNonContracting by decide)]
  rfl
/-- The rectified new hidden state against the head's \`Wl\`. -/
theorem mulWl_apply {φ₁ φ₂ : FTy} (l : FVec Ideal S4000x32 φ₁) (r : FVec Ideal S32x1 φ₂) (p : Fin 4000) (q : Fin 1) :
    matmul dot_S4000x32_S32x1_S4000x1_1_0_0_1_n_n none l r (constant S4000x1 .f32 0x00000000#32) (ix2 p q)
      = ∑ k : Fin 32, l (ix2 p k) * r (ix2 k q) := by
  show FloatOps.matmul dot_S4000x32_S32x1_S4000x1_1_0_0_1_n_n none l r (constant S4000x1 .f32 0x00000000#32) (ix2 p q) = _
  rw [Ideal.matmul_constant_zero_apply, ← Equiv.sum_comp (contrEquiv1 dot_S4000x32_S32x1_S4000x1_1_0_0_1_n_n 32 rfl rfl).symm]
  refine Finset.sum_congr rfl fun k _ => ?_
  have hk := contrEquiv1_symm_val dot_S4000x32_S32x1_S4000x1_1_0_0_1_n_n 32 rfl rfl k
  have el : dot_S4000x32_S32x1_S4000x1_1_0_0_1_n_n.lhsIdx (ix2 p q) ((contrEquiv1 dot_S4000x32_S32x1_S4000x1_1_0_0_1_n_n 32 rfl rfl).symm k) = ix2 p k :=
    funext fun a => Fin.ext (by
      match a with
      | ⟨0, _⟩ => exact mulWl_apply_lhs0 _ _
      | ⟨1, _⟩ => exact (dot_S4000x32_S32x1_S4000x1_1_0_0_1_n_n.lhsIdx_val_of_single rfl _ _).trans hk)
  have er : dot_S4000x32_S32x1_S4000x1_1_0_0_1_n_n.rhsIdx (ix2 p q) ((contrEquiv1 dot_S4000x32_S32x1_S4000x1_1_0_0_1_n_n 32 rfl rfl).symm k) = ix2 k q :=
    funext fun a => Fin.ext (by
      match a with
      | ⟨0, _⟩ => exact (dot_S4000x32_S32x1_S4000x1_1_0_0_1_n_n.rhsIdx_val_of_single rfl _ _).trans hk
      | ⟨1, _⟩ => exact mulWl_apply_rhs1 _ _)
  rw [el, er]

/-! ## The body's values at row `p` of the block -/

section Pointwise
variable {s : Shape} {φ : FTy}
theorem logistic_at (a : FVec Ideal s φ) (i : s.Idx) : logistic a i = Ideal.logistic (a i) := rfl
theorem tanh_at (a : FVec Ideal s φ) (i : s.Idx) : tanh a i = Ideal.tanh (a i) := rfl
end Pointwise

/-- The slice at offset 0 is the input gate's columns. -/
theorem gateSlice0_apply {α : Type} (v : S4000x128.Idx → α) (h : S4000x128.Slices ![0, 0] S4000x32) (p : Fin 4000) (j : Fin 32) :
    extractStridedSlice S4000x32 ![0, 0] v h (ix2 p j) = v (ix2 p (colI j)) :=
  extractStridedSlice_apply _ v h _ _ (fun a => by
    match a with
    | ⟨0, _⟩ => show p.val = 0 + p.val; omega
    | ⟨1, _⟩ => show j.val = 0 + j.val; omega)

/-- A packed block read as 4000 nodes × 32 units. -/
def unpacked (x : Vec Ideal S1000x128 .f32) : Mat 4000 32 := fun i => x (ix2 (packRow (i 0)) (packLane (i 0) (i 1)))
/-- A row vector staged as a one-row matrix. -/
def lane128 (v : Vec Ideal S1x128 .f32) : Row 128 := fun i => v (ix2 (0 : Fin 1) (i 0))
def lane32 (v : Vec Ideal S1x32 .f32) : Row 32 := fun i => v (ix2 (0 : Fin 1) (i 0))
def lane1 (v : Vec Ideal S1x1 .f32) : Row 1 := fun _ => v (ix2 (0 : Fin 1) (0 : Fin 1))

variable (x0 : Vec Ideal S4000x16 .f32) (x1 x2 : Vec Ideal S1000x128 .f32) (x3 : Vec Ideal S16x128 .f32) (x4 : Vec Ideal S1x128 .f32)
  (x5 : Vec Ideal S32x128 .f32) (x6 : Vec Ideal S1x128 .f32) (x7 x8 x9 x10 x11 x12 x13 : Vec Ideal S1x32 .f32)
  (x14 : Vec Ideal S32x1 .f32) (x15 : Vec Ideal S1x1 .f32)

/-- The unpacked cell state. -/
theorem pay2_at (p : Fin 4000) (j : Fin 32) : k0_pay2 (F := Ideal) x2 (ix2 p j) = unpacked x2 (ix2 p j) := by
  unfold k0_pay2
  simp only [shapeCast_self, unpack_apply]
  rfl

/-- The stacked pre-activations, summed from the left as the body does. -/
theorem pay3_at (p : Fin 4000) (q : Fin 128) :
    k0_pay3 (F := Ideal) x0 x1 x3 x5 x4 x6 (ix2 p q) = pre x0 (unpacked x1) x3 (lane128 x4) x5 (lane128 x6) p q := by
  rw [← pre_left]
  unfold k0_pay3
  simp only [addf_apply, mulWx_apply, mulWh_apply, bcast128_apply, truncf_apply, shapeCast_self, unpack_apply]
  rfl

/-- The forget, candidate and output gates' columns of the stacked pre-activations. -/
theorem pay4_at (p : Fin 4000) (j : Fin 32) :
    k0_pay4 (F := Ideal) x0 x1 x3 x5 x4 x6 (ix2 p j) = pre x0 (unpacked x1) x3 (lane128 x4) x5 (lane128 x6) p (colF j) := by
  unfold k0_pay4
  exact (gateSlice_apply 32 (by omega) _ _ p j).trans (pay3_at x0 x1 x3 x4 x5 x6 p _)
theorem pay5_at (p : Fin 4000) (j : Fin 32) :
    k0_pay5 (F := Ideal) x0 x1 x3 x5 x4 x6 (ix2 p j) = pre x0 (unpacked x1) x3 (lane128 x4) x5 (lane128 x6) p (colT j) := by
  unfold k0_pay5
  exact (gateSlice_apply 64 (by omega) _ _ p j).trans (pay3_at x0 x1 x3 x4 x5 x6 p _)
theorem pay6_at (p : Fin 4000) (j : Fin 32) :
    k0_pay6 (F := Ideal) x0 x1 x3 x5 x4 x6 (ix2 p j) = pre x0 (unpacked x1) x3 (lane128 x4) x5 (lane128 x6) p (colO j) := by
  unfold k0_pay6
  exact (gateSlice_apply 96 (by omega) _ _ p j).trans (pay3_at x0 x1 x3 x4 x5 x6 p _)

/-- The input gate. -/
theorem pay7_at (p : Fin 4000) (j : Fin 32) :
    k0_pay7 (F := Ideal) x0 x1 x2 x3 x5 x4 x6 x7 x10 (ix2 p j)
      = Ideal.logistic (pre x0 (unpacked x1) x3 (lane128 x4) x5 (lane128 x6) p (colI j)
          + lane32 x7 (ix1 j) * unpacked x2 (ix2 p j) + lane32 x10 (ix1 j)) := by
  unfold k0_pay7
  simp only [logistic_at, addf_apply, mulf_apply, bcast32_apply, shapeCast_self, gateSlice0_apply, pay2_at, pay3_at]
  rfl

/-- The new cell state of row `p`. -/
theorem pay8_at (p : Fin 4000) (j : Fin 32) :
    k0_pay8 (F := Ideal) (k0_pay2 x2) (k0_pay4 x0 x1 x3 x5 x4 x6) (k0_pay5 x0 x1 x3 x5 x4 x6)
        (k0_pay7 x0 x1 x2 x3 x5 x4 x6 x7 x10) x8 x11 x12 (ix2 p j)
      = cellNew x0 (unpacked x1) (unpacked x2) x3 (lane128 x4) x5 (lane128 x6) (lane32 x7) (lane32 x8) (lane32 x10) (lane32 x11)
          (lane32 x12) p j := by
  unfold k0_pay8 cellNew
  simp only [logistic_at, tanh_at, addf_apply, mulf_apply, bcast32_apply, shapeCast_self, pay2_at, pay4_at, pay5_at, pay7_at]
  rfl

/-- The new hidden state of row `p`. -/
theorem pay9_at (p : Fin 4000) (j : Fin 32) :
    k0_pay9 (F := Ideal) (k0_pay2 x2) (k0_pay4 x0 x1 x3 x5 x4 x6) (k0_pay5 x0 x1 x3 x5 x4 x6) (k0_pay6 x0 x1 x3 x5 x4 x6)
        (k0_pay7 x0 x1 x2 x3 x5 x4 x6 x7 x10) x8 x11 x12 x9 x13 (ix2 p j)
      = hidNew x0 (unpacked x1) (unpacked x2) x3 (lane128 x4) x5 (lane128 x6) (lane32 x7) (lane32 x8) (lane32 x9) (lane32 x10)
          (lane32 x11) (lane32 x12) (lane32 x13) p j := by
  unfold k0_pay9 hidNew
  simp only [logistic_at, tanh_at, addf_apply, mulf_apply, bcast32_apply, shapeCast_self, pay6_at, pay8_at]
  rfl

/-- The head's output for row `p`. -/
theorem pay10_at (p : Fin 4000) :
    k0_pay10 (F := Ideal) (k0_pay2 x2) (k0_pay4 x0 x1 x3 x5 x4 x6) (k0_pay5 x0 x1 x3 x5 x4 x6) (k0_pay6 x0 x1 x3 x5 x4 x6)
        (k0_pay7 x0 x1 x2 x3 x5 x4 x6 x7 x10) x8 x11 x12 x9 x13 x14 x15 (ix2 p (0 : Fin 1))
      = headOut x0 (unpacked x1) (unpacked x2) x3 (lane128 x4) x5 (lane128 x6) (lane32 x7) (lane32 x8) (lane32 x9) (lane32 x10)
          (lane32 x11) (lane32 x12) (lane32 x13) x14 (lane1 x15) p := by
  unfold k0_pay10 headOut
  simp only [addf_apply, maximumf_apply, broadcast_apply, truncf_apply, mulWl_apply, bcast1_apply, shapeCast_self, pay9_at]
  rfl

/-- The packed new hidden state: lane `l` of row `r` holds the node and unit packed there. -/
theorem pay11_at (r : Fin 1000) (l : Fin 128) :
    k0_pay11 (F := Ideal) (k0_pay2 x2) (k0_pay4 x0 x1 x3 x5 x4 x6) (k0_pay5 x0 x1 x3 x5 x4 x6) (k0_pay6 x0 x1 x3 x5 x4 x6)
        (k0_pay7 x0 x1 x2 x3 x5 x4 x6 x7 x10) x8 x11 x12 x9 x13 (ix2 r l)
      = hidNew x0 (unpacked x1) (unpacked x2) x3 (lane128 x4) x5 (lane128 x6) (lane32 x7) (lane32 x8) (lane32 x9) (lane32 x10)
          (lane32 x11) (lane32 x12) (lane32 x13) (nodeOf r l) (unitOf l) := by
  unfold k0_pay11
  exact (pack_apply _ _ r l).trans (pay9_at x0 x1 x2 x3 x4 x5 x6 x7 x8 x9 x10 x11 x12 x13 _ _)

/-- The packed new cell state. -/
theorem pay1_at (r : Fin 1000) (l : Fin 128) :
    k0_pay1 (F := Ideal) (k0_pay8 (k0_pay2 x2) (k0_pay4 x0 x1 x3 x5 x4 x6) (k0_pay5 x0 x1 x3 x5 x4 x6)
        (k0_pay7 x0 x1 x2 x3 x5 x4 x6 x7 x10) x8 x11 x12) (ix2 r l)
      = cellNew x0 (unpacked x1) (unpacked x2) x3 (lane128 x4) x5 (lane128 x6) (lane32 x7) (lane32 x8) (lane32 x10) (lane32 x11)
          (lane32 x12) (nodeOf r l) (unitOf l) := by
  unfold k0_pay1
  exact (pack_apply _ _ r l).trans (pay8_at x0 x1 x2 x3 x4 x5 x6 x7 x8 x10 x11 x12 _ _)

end Cert.KernelRow

end
-- ==== Proof.KernelBlocks.lean ====
/-
  The kernel's blocks against the arrays.  Grid point `t` works on nodes `4000·t … 4000·t + 3999`: its block of the
  features is those rows, its packed blocks of the hidden and cell states are packed rows `1000·t … 1000·t + 999` of
  the host's row-major repacking (four nodes to a row), and the weights and biases are staged whole.  So row `p` of
  every block is node `4000·t + p` of the arrays.
-/
import proofs.«126688_j15693810499716_2_alg».proof.Proof.Gen.KernelIdeal.Frame
import proofs.«126688_j15693810499716_2_alg».proof.Proof.KernelRow
import Idealize.ShloMosaic.Lib.StableHlo.Run

set_option maxRecDepth 16384

noncomputable section

open scoped BigOperators

namespace Cert.KernelBlocks

open Cert.KernelIdeal Cert.KernelIdeal.Gen Idealize.ShloMosaic Idealize.ShloMosaic.TcCoe Idealize.SL.Sem
open Idealize.ShloMosaic.ValueIdx Cert.GateCell Cert.KernelRow
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The grid has 250 points. -/
theorem lt_N (t : Fin cfg0.N) : t.val < 250 := lt_of_lt_of_eq t.isLt (show cfg0.N = 250 from N_0)

/-- The printed index maps over the grid: the node-blocked windows move one block per point along the nodes, the
    weights and biases stay. -/
theorem idx_moving : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_16.index t (0 : Fin 2) = t.val ∧ win0_16.index t (1 : Fin 2) = 0)
    ∧ (win0_17.index t (0 : Fin 2) = t.val ∧ win0_17.index t (1 : Fin 2) = 0)
    ∧ (win0_18.index t (0 : Fin 2) = t.val ∧ win0_18.index t (1 : Fin 2) = 0) :=
  (by decide +kernel : ∀ t : Fin grid0.N, _)

theorem idx_fixed : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

/-- Node `4000·t + p`: row `p` of point `t`'s block. -/
def nodeAt (t : Fin cfg0.N) (p : Fin 4000) : Fin 1000000 := ⟨4000 * t.val + p.val, by have := lt_N t; omega⟩
/-- Packed row `1000·t + r`. -/
def packedAt (t : Fin cfg0.N) (r : Fin 1000) : Fin 250000 := ⟨1000 * t.val + r.val, by have := lt_N t; omega⟩

/-- Point `t`'s block of the features is rows `4000·t …` of the argument. -/
theorem iblk0_apply (c : Dev nD) (t : Fin cfg0.N) (p : Fin 4000) (k : Fin 16) :
    (iblk m c 0 t : Vec Ideal S4000x16 .f32) (ix2 p k)
      = (m ((c : Thread nD τ).loc main_arg0) : S1000000x16.Idx → EReal) (ix2 (nodeAt t p) k) := by
  obtain ⟨⟨e0, e1⟩, -⟩ := idx_moving t
  unfold iblk
  rw [View.read_apply]
  show V m c main_arg0 _ = _
  rw [V_main_arg0]
  congr 1
  funext a
  apply Fin.ext
  match a with
  | ⟨0, _⟩ => show win0_0.index t (0 : Fin 2) * 4000 + 1 * p.val = 4000 * t.val + p.val; rw [e0]; omega
  | ⟨1, _⟩ => show win0_0.index t (1 : Fin 2) * 16 + 1 * k.val = k.val; rw [e1]; omega

/-! ## The arrays the host writes before the region: row-major reshapes of the arguments -/

theorem V_main_v0 (c : Dev nD) :
    (V m c main_v0 : S1x128.Idx → EReal) = shapeCast S1x128 (m ((c : Thread nD τ).loc main_arg6)) shapeCasts_S128_S1x128 := by
  show StableHlo.after hostOps0 (fun b => m (c, b)) (Proc.devRef .tc main_v0) = _
  after_results
  rfl

theorem V_main_v1 (c : Dev nD) :
    (V m c main_v1 : S1x128.Idx → EReal) = shapeCast S1x128 (m ((c : Thread nD τ).loc main_arg8)) shapeCasts_S128_S1x128 := by
  show StableHlo.after hostOps0 (fun b => m (c, b)) (Proc.devRef .tc main_v1) = _
  after_results
  rfl

theorem V_main_v2 (c : Dev nD) :
    (V m c main_v2 : S1x32.Idx → EReal) = shapeCast S1x32 (m ((c : Thread nD τ).loc main_arg9)) shapeCasts_S32_S1x32 := by
  show StableHlo.after hostOps0 (fun b => m (c, b)) (Proc.devRef .tc main_v2) = _
  after_results
  rfl

theorem V_main_v3 (c : Dev nD) :
    (V m c main_v3 : S1x32.Idx → EReal) = shapeCast S1x32 (m ((c : Thread nD τ).loc main_arg10)) shapeCasts_S32_S1x32 := by
  show StableHlo.after hostOps0 (fun b => m (c, b)) (Proc.devRef .tc main_v3) = _
  after_results
  rfl

theorem V_main_v4 (c : Dev nD) :
    (V m c main_v4 : S1x32.Idx → EReal) = shapeCast S1x32 (m ((c : Thread nD τ).loc main_arg11)) shapeCasts_S32_S1x32 := by
  show StableHlo.after hostOps0 (fun b => m (c, b)) (Proc.devRef .tc main_v4) = _
  after_results
  rfl

theorem V_main_v5 (c : Dev nD) :
    (V m c main_v5 : S1x32.Idx → EReal) = shapeCast S1x32 (m ((c : Thread nD τ).loc main_arg12)) shapeCasts_S32_S1x32 := by
  show StableHlo.after hostOps0 (fun b => m (c, b)) (Proc.devRef .tc main_v5) = _
  after_results
  rfl

theorem V_main_v6 (c : Dev nD) :
    (V m c main_v6 : S1x32.Idx → EReal) = shapeCast S1x32 (m ((c : Thread nD τ).loc main_arg13)) shapeCasts_S32_S1x32 := by
  show StableHlo.after hostOps0 (fun b => m (c, b)) (Proc.devRef .tc main_v6) = _
  after_results
  rfl

theorem V_main_v7 (c : Dev nD) :
    (V m c main_v7 : S1x32.Idx → EReal) = shapeCast S1x32 (m ((c : Thread nD τ).loc main_arg14)) shapeCasts_S32_S1x32 := by
  show StableHlo.after hostOps0 (fun b => m (c, b)) (Proc.devRef .tc main_v7) = _
  after_results
  rfl

theorem V_main_v8 (c : Dev nD) :
    (V m c main_v8 : S1x32.Idx → EReal) = shapeCast S1x32 (m ((c : Thread nD τ).loc main_arg15)) shapeCasts_S32_S1x32 := by
  show StableHlo.after hostOps0 (fun b => m (c, b)) (Proc.devRef .tc main_v8) = _
  after_results
  rfl

theorem V_main_v9 (c : Dev nD) :
    (V m c main_v9 : S1x1.Idx → EReal) = shapeCast S1x1 (m ((c : Thread nD τ).loc main_arg17)) shapeCasts_S1_S1x1 := by
  show StableHlo.after hostOps0 (fun b => m (c, b)) (Proc.devRef .tc main_v9) = _
  after_results
  rfl

theorem V_main_v10 (c : Dev nD) :
    (V m c main_v10 : S250000x128.Idx → EReal) = shapeCast S250000x128 (m ((c : Thread nD τ).loc main_arg3)) shapeCasts_S1000000x32_S250000x128 := by
  show StableHlo.after hostOps0 (fun b => m (c, b)) (Proc.devRef .tc main_v10) = _
  after_results
  rfl

theorem V_main_v11 (c : Dev nD) :
    (V m c main_v11 : S250000x128.Idx → EReal) = shapeCast S250000x128 (m ((c : Thread nD τ).loc main_arg4)) shapeCasts_S1000000x32_S250000x128 := by
  show StableHlo.after hostOps0 (fun b => m (c, b)) (Proc.devRef .tc main_v11) = _
  after_results
  rfl

/-! ## Each window's block at point `t` -/

/-- Point \`t\`'s packed block of the hidden state, unpacked, is rows \`4000·t …\` of the argument. -/
theorem iblk1_unpacked (c : Dev nD) (t : Fin cfg0.N) (p : Fin 4000) (k : Fin 32) :
    unpacked (iblk m c 1 t) (ix2 p k)
      = (m ((c : Thread nD τ).loc main_arg3) : S1000000x32.Idx → EReal) (ix2 (nodeAt t p) k) := by
  obtain ⟨-, g1, g2, -⟩ := idx_moving t
  obtain ⟨e0, e1⟩ := g1
  show (iblk m c 1 t : Vec Ideal S1000x128 .f32) (ix2 (packRow p) (packLane p k)) = _
  unfold iblk
  rw [View.read_apply]
  show V m c main_v10 _ = _
  rw [V_main_v10]
  refine shapeCast_apply _ _ _ _ ?_
  show (S1000000x32.rowMajor (ix2 (nodeAt t p) k)).val = (S250000x128.rowMajor _).val
  rw [Shape.rowMajor_val_two, Shape.rowMajor_val_two]
  show (4000 * t.val + p.val) * 32 + k.val
    = (win0_1.index t (0 : Fin 2) * 1000 + 1 * (p.val / 4)) * 128 + (win0_1.index t (1 : Fin 2) * 128 + 1 * (32 * (p.val % 4) + k.val))
  rw [e0, e1]; omega

/-- The same for the cell state. -/
theorem iblk2_unpacked (c : Dev nD) (t : Fin cfg0.N) (p : Fin 4000) (k : Fin 32) :
    unpacked (iblk m c 2 t) (ix2 p k)
      = (m ((c : Thread nD τ).loc main_arg4) : S1000000x32.Idx → EReal) (ix2 (nodeAt t p) k) := by
  obtain ⟨-, g1, g2, -⟩ := idx_moving t
  obtain ⟨e0, e1⟩ := g2
  show (iblk m c 2 t : Vec Ideal S1000x128 .f32) (ix2 (packRow p) (packLane p k)) = _
  unfold iblk
  rw [View.read_apply]
  show V m c main_v11 _ = _
  rw [V_main_v11]
  refine shapeCast_apply _ _ _ _ ?_
  show (S1000000x32.rowMajor (ix2 (nodeAt t p) k)).val = (S250000x128.rowMajor _).val
  rw [Shape.rowMajor_val_two, Shape.rowMajor_val_two]
  show (4000 * t.val + p.val) * 32 + k.val
    = (win0_2.index t (0 : Fin 2) * 1000 + 1 * (p.val / 4)) * 128 + (win0_2.index t (1 : Fin 2) * 128 + 1 * (32 * (p.val % 4) + k.val))
  rw [e0, e1]; omega

/-- The weights are staged whole. -/
theorem iblk3_eq (c : Dev nD) (t : Fin cfg0.N) :
    (iblk m c 3 t : Vec Ideal S16x128 .f32) = (m ((c : Thread nD τ).loc main_arg5) : S16x128.Idx → EReal) := by
  obtain ⟨f3, f4, f5, f6, f7, f8, f9, f10, f11, f12, f13, f14, f15⟩ := idx_fixed t
  obtain ⟨e0, e1⟩ := f3
  funext y
  unfold iblk
  rw [View.read_apply]
  show V m c main_arg5 _ = _
  rw [V_main_arg5]
  congr 1
  funext d
  apply Fin.ext
  match d with
  | ⟨0, _⟩ => show win0_3.index t (0 : Fin 2) * 16 + 1 * (y 0).val = (y 0).val; rw [e0]; omega
  | ⟨1, _⟩ => show win0_3.index t (1 : Fin 2) * 128 + 1 * (y 1).val = (y 1).val; rw [e1]; omega

/-- The weights are staged whole. -/
theorem iblk5_eq (c : Dev nD) (t : Fin cfg0.N) :
    (iblk m c 5 t : Vec Ideal S32x128 .f32) = (m ((c : Thread nD τ).loc main_arg7) : S32x128.Idx → EReal) := by
  obtain ⟨f3, f4, f5, f6, f7, f8, f9, f10, f11, f12, f13, f14, f15⟩ := idx_fixed t
  obtain ⟨e0, e1⟩ := f5
  funext y
  unfold iblk
  rw [View.read_apply]
  show V m c main_arg7 _ = _
  rw [V_main_arg7]
  congr 1
  funext d
  apply Fin.ext
  match d with
  | ⟨0, _⟩ => show win0_5.index t (0 : Fin 2) * 32 + 1 * (y 0).val = (y 0).val; rw [e0]; omega
  | ⟨1, _⟩ => show win0_5.index t (1 : Fin 2) * 128 + 1 * (y 1).val = (y 1).val; rw [e1]; omega

/-- The head's weights are staged whole. -/
theorem iblk14_eq (c : Dev nD) (t : Fin cfg0.N) :
    (iblk m c 14 t : Vec Ideal S32x1 .f32) = (m ((c : Thread nD τ).loc main_arg16) : S32x1.Idx → EReal) := by
  obtain ⟨f3, f4, f5, f6, f7, f8, f9, f10, f11, f12, f13, f14, f15⟩ := idx_fixed t
  obtain ⟨e0, e1⟩ := f14
  funext y
  unfold iblk
  rw [View.read_apply]
  show V m c main_arg16 _ = _
  rw [V_main_arg16]
  congr 1
  funext d
  apply Fin.ext
  match d with
  | ⟨0, _⟩ => show win0_14.index t (0 : Fin 2) * 32 + 1 * (y 0).val = (y 0).val; rw [e0]; omega
  | ⟨1, _⟩ => show win0_14.index t (1 : Fin 2) * 1 + 1 * (y 1).val = (y 1).val; rw [e1]; omega

/-- The biases and peephole weights are staged as one-row matrices. -/
theorem lane_w4 (c : Dev nD) (t : Fin cfg0.N) :
    lane128 (iblk m c 4 t) = (m ((c : Thread nD τ).loc main_arg6) : S128.Idx → EReal) := by
  obtain ⟨f3, f4, f5, f6, f7, f8, f9, f10, f11, f12, f13, f14, f15⟩ := idx_fixed t
  obtain ⟨e0, e1⟩ := f4
  funext i
  obtain ⟨q, rfl⟩ : ∃ q : Fin 128, i = ix1 q := ⟨i 0, eq_ix1 i⟩
  show (iblk m c 4 t : Vec Ideal S1x128 .f32) (ix2 (0 : Fin 1) q) = _
  unfold iblk
  rw [View.read_apply]
  show V m c main_v0 _ = _
  rw [V_main_v0]
  refine shapeCast_apply _ _ _ _ ?_
  show (S128.rowMajor (ix1 q)).val = (S1x128.rowMajor _).val
  rw [Shape.rowMajor_val_one, Shape.rowMajor_val_two]
  show q.val = (win0_4.index t (0 : Fin 2) * 1 + 1 * 0) * 128 + (win0_4.index t (1 : Fin 2) * 128 + 1 * q.val)
  rw [e0, e1]; omega

theorem lane_w6 (c : Dev nD) (t : Fin cfg0.N) :
    lane128 (iblk m c 6 t) = (m ((c : Thread nD τ).loc main_arg8) : S128.Idx → EReal) := by
  obtain ⟨f3, f4, f5, f6, f7, f8, f9, f10, f11, f12, f13, f14, f15⟩ := idx_fixed t
  obtain ⟨e0, e1⟩ := f6
  funext i
  obtain ⟨q, rfl⟩ : ∃ q : Fin 128, i = ix1 q := ⟨i 0, eq_ix1 i⟩
  show (iblk m c 6 t : Vec Ideal S1x128 .f32) (ix2 (0 : Fin 1) q) = _
  unfold iblk
  rw [View.read_apply]
  show V m c main_v1 _ = _
  rw [V_main_v1]
  refine shapeCast_apply _ _ _ _ ?_
  show (S128.rowMajor (ix1 q)).val = (S1x128.rowMajor _).val
  rw [Shape.rowMajor_val_one, Shape.rowMajor_val_two]
  show q.val = (win0_6.index t (0 : Fin 2) * 1 + 1 * 0) * 128 + (win0_6.index t (1 : Fin 2) * 128 + 1 * q.val)
  rw [e0, e1]; omega

theorem lane_w7 (c : Dev nD) (t : Fin cfg0.N) :
    lane32 (iblk m c 7 t) = (m ((c : Thread nD τ).loc main_arg9) : S32.Idx → EReal) := by
  obtain ⟨f3, f4, f5, f6, f7, f8, f9, f10, f11, f12, f13, f14, f15⟩ := idx_fixed t
  obtain ⟨e0, e1⟩ := f7
  funext i
  obtain ⟨q, rfl⟩ : ∃ q : Fin 32, i = ix1 q := ⟨i 0, eq_ix1 i⟩
  show (iblk m c 7 t : Vec Ideal S1x32 .f32) (ix2 (0 : Fin 1) q) = _
  unfold iblk
  rw [View.read_apply]
  show V m c main_v2 _ = _
  rw [V_main_v2]
  refine shapeCast_apply _ _ _ _ ?_
  show (S32.rowMajor (ix1 q)).val = (S1x32.rowMajor _).val
  rw [Shape.rowMajor_val_one, Shape.rowMajor_val_two]
  show q.val = (win0_7.index t (0 : Fin 2) * 1 + 1 * 0) * 32 + (win0_7.index t (1 : Fin 2) * 32 + 1 * q.val)
  rw [e0, e1]; omega

theorem lane_w8 (c : Dev nD) (t : Fin cfg0.N) :
    lane32 (iblk m c 8 t) = (m ((c : Thread nD τ).loc main_arg10) : S32.Idx → EReal) := by
  obtain ⟨f3, f4, f5, f6, f7, f8, f9, f10, f11, f12, f13, f14, f15⟩ := idx_fixed t
  obtain ⟨e0, e1⟩ := f8
  funext i
  obtain ⟨q, rfl⟩ : ∃ q : Fin 32, i = ix1 q := ⟨i 0, eq_ix1 i⟩
  show (iblk m c 8 t : Vec Ideal S1x32 .f32) (ix2 (0 : Fin 1) q) = _
  unfold iblk
  rw [View.read_apply]
  show V m c main_v3 _ = _
  rw [V_main_v3]
  refine shapeCast_apply _ _ _ _ ?_
  show (S32.rowMajor (ix1 q)).val = (S1x32.rowMajor _).val
  rw [Shape.rowMajor_val_one, Shape.rowMajor_val_two]
  show q.val = (win0_8.index t (0 : Fin 2) * 1 + 1 * 0) * 32 + (win0_8.index t (1 : Fin 2) * 32 + 1 * q.val)
  rw [e0, e1]; omega

theorem lane_w9 (c : Dev nD) (t : Fin cfg0.N) :
    lane32 (iblk m c 9 t) = (m ((c : Thread nD τ).loc main_arg11) : S32.Idx → EReal) := by
  obtain ⟨f3, f4, f5, f6, f7, f8, f9, f10, f11, f12, f13, f14, f15⟩ := idx_fixed t
  obtain ⟨e0, e1⟩ := f9
  funext i
  obtain ⟨q, rfl⟩ : ∃ q : Fin 32, i = ix1 q := ⟨i 0, eq_ix1 i⟩
  show (iblk m c 9 t : Vec Ideal S1x32 .f32) (ix2 (0 : Fin 1) q) = _
  unfold iblk
  rw [View.read_apply]
  show V m c main_v4 _ = _
  rw [V_main_v4]
  refine shapeCast_apply _ _ _ _ ?_
  show (S32.rowMajor (ix1 q)).val = (S1x32.rowMajor _).val
  rw [Shape.rowMajor_val_one, Shape.rowMajor_val_two]
  show q.val = (win0_9.index t (0 : Fin 2) * 1 + 1 * 0) * 32 + (win0_9.index t (1 : Fin 2) * 32 + 1 * q.val)
  rw [e0, e1]; omega

theorem lane_w10 (c : Dev nD) (t : Fin cfg0.N) :
    lane32 (iblk m c 10 t) = (m ((c : Thread nD τ).loc main_arg12) : S32.Idx → EReal) := by
  obtain ⟨f3, f4, f5, f6, f7, f8, f9, f10, f11, f12, f13, f14, f15⟩ := idx_fixed t
  obtain ⟨e0, e1⟩ := f10
  funext i
  obtain ⟨q, rfl⟩ : ∃ q : Fin 32, i = ix1 q := ⟨i 0, eq_ix1 i⟩
  show (iblk m c 10 t : Vec Ideal S1x32 .f32) (ix2 (0 : Fin 1) q) = _
  unfold iblk
  rw [View.read_apply]
  show V m c main_v5 _ = _
  rw [V_main_v5]
  refine shapeCast_apply _ _ _ _ ?_
  show (S32.rowMajor (ix1 q)).val = (S1x32.rowMajor _).val
  rw [Shape.rowMajor_val_one, Shape.rowMajor_val_two]
  show q.val = (win0_10.index t (0 : Fin 2) * 1 + 1 * 0) * 32 + (win0_10.index t (1 : Fin 2) * 32 + 1 * q.val)
  rw [e0, e1]; omega

theorem lane_w11 (c : Dev nD) (t : Fin cfg0.N) :
    lane32 (iblk m c 11 t) = (m ((c : Thread nD τ).loc main_arg13) : S32.Idx → EReal) := by
  obtain ⟨f3, f4, f5, f6, f7, f8, f9, f10, f11, f12, f13, f14, f15⟩ := idx_fixed t
  obtain ⟨e0, e1⟩ := f11
  funext i
  obtain ⟨q, rfl⟩ : ∃ q : Fin 32, i = ix1 q := ⟨i 0, eq_ix1 i⟩
  show (iblk m c 11 t : Vec Ideal S1x32 .f32) (ix2 (0 : Fin 1) q) = _
  unfold iblk
  rw [View.read_apply]
  show V m c main_v6 _ = _
  rw [V_main_v6]
  refine shapeCast_apply _ _ _ _ ?_
  show (S32.rowMajor (ix1 q)).val = (S1x32.rowMajor _).val
  rw [Shape.rowMajor_val_one, Shape.rowMajor_val_two]
  show q.val = (win0_11.index t (0 : Fin 2) * 1 + 1 * 0) * 32 + (win0_11.index t (1 : Fin 2) * 32 + 1 * q.val)
  rw [e0, e1]; omega

theorem lane_w12 (c : Dev nD) (t : Fin cfg0.N) :
    lane32 (iblk m c 12 t) = (m ((c : Thread nD τ).loc main_arg14) : S32.Idx → EReal) := by
  obtain ⟨f3, f4, f5, f6, f7, f8, f9, f10, f11, f12, f13, f14, f15⟩ := idx_fixed t
  obtain ⟨e0, e1⟩ := f12
  funext i
  obtain ⟨q, rfl⟩ : ∃ q : Fin 32, i = ix1 q := ⟨i 0, eq_ix1 i⟩
  show (iblk m c 12 t : Vec Ideal S1x32 .f32) (ix2 (0 : Fin 1) q) = _
  unfold iblk
  rw [View.read_apply]
  show V m c main_v7 _ = _
  rw [V_main_v7]
  refine shapeCast_apply _ _ _ _ ?_
  show (S32.rowMajor (ix1 q)).val = (S1x32.rowMajor _).val
  rw [Shape.rowMajor_val_one, Shape.rowMajor_val_two]
  show q.val = (win0_12.index t (0 : Fin 2) * 1 + 1 * 0) * 32 + (win0_12.index t (1 : Fin 2) * 32 + 1 * q.val)
  rw [e0, e1]; omega

theorem lane_w13 (c : Dev nD) (t : Fin cfg0.N) :
    lane32 (iblk m c 13 t) = (m ((c : Thread nD τ).loc main_arg15) : S32.Idx → EReal) := by
  obtain ⟨f3, f4, f5, f6, f7, f8, f9, f10, f11, f12, f13, f14, f15⟩ := idx_fixed t
  obtain ⟨e0, e1⟩ := f13
  funext i
  obtain ⟨q, rfl⟩ : ∃ q : Fin 32, i = ix1 q := ⟨i 0, eq_ix1 i⟩
  show (iblk m c 13 t : Vec Ideal S1x32 .f32) (ix2 (0 : Fin 1) q) = _
  unfold iblk
  rw [View.read_apply]
  show V m c main_v8 _ = _
  rw [V_main_v8]
  refine shapeCast_apply _ _ _ _ ?_
  show (S32.rowMajor (ix1 q)).val = (S1x32.rowMajor _).val
  rw [Shape.rowMajor_val_one, Shape.rowMajor_val_two]
  show q.val = (win0_13.index t (0 : Fin 2) * 1 + 1 * 0) * 32 + (win0_13.index t (1 : Fin 2) * 32 + 1 * q.val)
  rw [e0, e1]; omega

theorem lane_w15 (c : Dev nD) (t : Fin cfg0.N) :
    lane1 (iblk m c 15 t) = (m ((c : Thread nD τ).loc main_arg17) : S1.Idx → EReal) := by
  obtain ⟨f3, f4, f5, f6, f7, f8, f9, f10, f11, f12, f13, f14, f15⟩ := idx_fixed t
  obtain ⟨e0, e1⟩ := f15
  funext i
  obtain ⟨q, rfl⟩ : ∃ q : Fin 1, i = ix1 q := ⟨i 0, eq_ix1 i⟩
  show (iblk m c 15 t : Vec Ideal S1x1 .f32) (ix2 (0 : Fin 1) (0 : Fin 1)) = _
  unfold iblk
  rw [View.read_apply]
  show V m c main_v9 _ = _
  rw [V_main_v9]
  refine shapeCast_apply _ _ _ _ ?_
  show (S1.rowMajor (ix1 q)).val = (S1x1.rowMajor _).val
  rw [Shape.rowMajor_val_one, Shape.rowMajor_val_two]
  show q.val = (win0_15.index t (0 : Fin 2) * 1 + 1 * 0) * 1 + (win0_15.index t (1 : Fin 2) * 1 + 1 * 0)
  rw [e0, e1]; have := q.isLt; omega

/-! ## What the region leaves: the three result arrays as functions of the arguments -/

/-- The head's output, the new hidden state and the new cell state of every node, from the argument arrays. -/
def outOf (c : Dev nD) : S1000000x1.Idx → EReal := outArr (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
def hidOf (c : Dev nD) : S1000000x32.Idx → EReal := hidArr (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
def cellOf (c : Dev nD) : S1000000x32.Idx → EReal := cellArr (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg12)) (m ((c : Thread nD τ).loc main_arg13)) (m ((c : Thread nD τ).loc main_arg14))

/-- The node a lane of a packed row holds: four nodes to a row. -/
abbrev bigNode (R : Fin 250000) (l : Fin 128) : Fin 1000000 := ⟨4 * R.val + l.val / 32, by omega⟩
/-- The new hidden and cell states as the kernel writes them, packed four nodes to a 128-lane row. -/
def hidPacked (c : Dev nD) : S250000x128.Idx → EReal := fun i => hidOf m c (ix2 (bigNode (i 0) (i 1)) (unitOf (i 1)))
def cellPacked (c : Dev nD) : S250000x128.Idx → EReal := fun i => cellOf m c (ix2 (bigNode (i 0) (i 1)) (unitOf (i 1)))

/-- WHAT POINT `t` WRITES BACK to the head's output: the outputs of nodes `4000·t …`. -/
theorem flushed16_eq (c : Dev nD) (t : Fin cfg0.N) :
    (dats m 0 c).flushed 16 t = ((cfg0.win 16).blk t).view.read (Elt Ideal) (outOf m c) := by
  obtain ⟨-, -, -, ⟨e0, e1⟩, -, -⟩ := idx_moving t
  show (cfg0.win 16).cut (grid0.coords t) ((dats m 0 c).after 16 t) = _
  rw [after0_16]
  unfold out0_16
  rw [View.canon_unit_zero hz]
  simp only [View.ld_unit_zero (S := S4000x16) hz, View.ld_unit_zero (S := S1000x128) hz, View.ld_unit_zero (S := S16x128) hz, View.ld_unit_zero (S := S32x128) hz, View.ld_unit_zero (S := S1x128) hz, View.ld_unit_zero (S := S1x32) hz, View.ld_unit_zero (S := S32x1) hz, View.ld_unit_zero (S := S1x1) hz]
  funext y
  obtain ⟨p, z, rfl⟩ : ∃ (p : Fin 4000) (z : Fin 1), y = ix2 p z := ⟨y 0, y 1, eq_ix2 y⟩
  obtain rfl : z = 0 := Subsingleton.elim _ _
  refine (pay10_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p).trans ?_
  rw [iblk3_eq, iblk5_eq, lane_w4, lane_w6, lane_w7, lane_w8, lane_w9, lane_w10, lane_w11, lane_w12, lane_w13, iblk14_eq, lane_w15]
  refine (headOut_row _ _ _ _ _ _ _ _ _ _ _ _ _ _ _ _ _ _ _ p (nodeAt t p) (iblk0_apply m c t p) (iblk1_unpacked m c t p)
    (iblk2_unpacked m c t p)).trans ?_
  have hn : nodeAt t p = (((cfg0.win 16).blk t).view.emb (ix2 p (0 : Fin 1))) 0 := Fin.ext (by
    show 4000 * t.val + p.val = win0_16.index t (0 : Fin 2) * 4000 + 1 * p.val; rw [e0]; omega)
  rw [hn]
  rfl

/-- WHAT POINT `t` WRITES BACK to the packed new hidden state: packed rows `1000·t …`. -/
theorem flushed17_eq (c : Dev nD) (t : Fin cfg0.N) :
    (dats m 0 c).flushed 17 t = ((cfg0.win 17).blk t).view.read (Elt Ideal) (hidPacked m c) := by
  obtain ⟨-, -, -, -, ⟨e0, e1⟩, -⟩ := idx_moving t
  show (cfg0.win 17).cut (grid0.coords t) ((dats m 0 c).after 17 t) = _
  rw [after0_17]
  unfold out0_17
  rw [View.canon_unit_zero hz]
  simp only [View.ld_unit_zero (S := S4000x16) hz, View.ld_unit_zero (S := S1000x128) hz, View.ld_unit_zero (S := S16x128) hz, View.ld_unit_zero (S := S32x128) hz, View.ld_unit_zero (S := S1x128) hz, View.ld_unit_zero (S := S1x32) hz, View.ld_unit_zero (S := S32x1) hz, View.ld_unit_zero (S := S1x1) hz]
  funext y
  obtain ⟨r, l, rfl⟩ : ∃ (r : Fin 1000) (l : Fin 128), y = ix2 r l := ⟨y 0, y 1, eq_ix2 y⟩
  refine (pay11_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r l).trans ?_
  rw [iblk3_eq, iblk5_eq, lane_w4, lane_w6, lane_w7, lane_w8, lane_w9, lane_w10, lane_w11, lane_w12, lane_w13]
  refine (hidNew_row _ _ _ _ _ _ _ _ _ _ _ _ _ _ _ _ _ (nodeOf r l) (nodeAt t (nodeOf r l)) (iblk0_apply m c t _) (iblk1_unpacked m c t _)
    (iblk2_unpacked m c t _) (unitOf l)).trans ?_
  have hn : nodeAt t (nodeOf r l) = bigNode ((((cfg0.win 17).blk t).view.emb (ix2 r l)) 0) ((((cfg0.win 17).blk t).view.emb (ix2 r l)) 1) :=
    Fin.ext (by
      show 4000 * t.val + (4 * r.val + l.val / 32)
        = 4 * (win0_17.index t (0 : Fin 2) * 1000 + 1 * r.val) + (win0_17.index t (1 : Fin 2) * 128 + 1 * l.val) / 32
      rw [e0, e1]; omega)
  have hu : unitOf l = unitOf ((((cfg0.win 17).blk t).view.emb (ix2 r l)) 1) := Fin.ext (by
    show l.val % 32 = (win0_17.index t (1 : Fin 2) * 128 + 1 * l.val) % 32; rw [e1]; omega)
  rw [hn, hu]
  rfl

/-- WHAT POINT `t` WRITES BACK to the packed new cell state. -/
theorem flushed18_eq (c : Dev nD) (t : Fin cfg0.N) :
    (dats m 0 c).flushed 18 t = ((cfg0.win 18).blk t).view.read (Elt Ideal) (cellPacked m c) := by
  obtain ⟨-, -, -, -, -, ⟨e0, e1⟩⟩ := idx_moving t
  show (cfg0.win 18).cut (grid0.coords t) ((dats m 0 c).after 18 t) = _
  rw [after0_18]
  unfold out0_18
  rw [View.canon_unit_zero hz]
  simp only [View.ld_unit_zero (S := S4000x16) hz, View.ld_unit_zero (S := S1000x128) hz, View.ld_unit_zero (S := S16x128) hz, View.ld_unit_zero (S := S32x128) hz, View.ld_unit_zero (S := S1x128) hz, View.ld_unit_zero (S := S1x32) hz, View.ld_unit_zero (S := S32x1) hz, View.ld_unit_zero (S := S1x1) hz]
  funext y
  obtain ⟨r, l, rfl⟩ : ∃ (r : Fin 1000) (l : Fin 128), y = ix2 r l := ⟨y 0, y 1, eq_ix2 y⟩
  refine (pay1_at (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) r l).trans ?_
  rw [iblk3_eq, iblk5_eq, lane_w4, lane_w6, lane_w7, lane_w8, lane_w10, lane_w11, lane_w12]
  refine (cellNew_row _ _ _ _ _ _ _ _ _ _ _ _ _ _ _ (nodeOf r l) (nodeAt t (nodeOf r l)) (iblk0_apply m c t _) (iblk1_unpacked m c t _)
    (iblk2_unpacked m c t _) (unitOf l)).trans ?_
  have hn : nodeAt t (nodeOf r l) = bigNode ((((cfg0.win 18).blk t).view.emb (ix2 r l)) 0) ((((cfg0.win 18).blk t).view.emb (ix2 r l)) 1) :=
    Fin.ext (by
      show 4000 * t.val + (4 * r.val + l.val / 32)
        = 4 * (win0_18.index t (0 : Fin 2) * 1000 + 1 * r.val) + (win0_18.index t (1 : Fin 2) * 128 + 1 * l.val) / 32
      rw [e0, e1]; omega)
  have hu : unitOf l = unitOf ((((cfg0.win 18).blk t).view.emb (ix2 r l)) 1) := Fin.ext (by
    show l.val % 32 = (win0_18.index t (1 : Fin 2) * 128 + 1 * l.val) % 32; rw [e1]; omega)
  rw [hn, hu]
  rfl

end Cert.KernelBlocks

end
-- ==== Proof.KernelValue.lean ====
/-
  The kernel's run, read: the blocks the grid points write back tile the three result arrays, so after the region
  the head's output holds every node's output and the two packed arrays hold every node's new hidden and cell
  state, four nodes to a row; the host's row-major reshapes after the region unpack them again.
-/
import proofs.«126688_j15693810499716_2_alg».proof.Proof.KernelBlocks

set_option maxRecDepth 16384

noncomputable section

open scoped BigOperators

namespace Cert.KernelValue

open Cert.KernelIdeal Cert.KernelIdeal.Gen Idealize.ShloMosaic Idealize.ShloMosaic.TcCoe Idealize.SL.Sem
open Idealize.ShloMosaic.ValueIdx Cert.GateCell Cert.KernelRow Cert.KernelBlocks
open Idealize.ShloMosaic.Pipeline (Dat)

variable (m : (ℓ : Loc nD τ sig) → Buf (Elt Ideal) ℓ) (ρ : Dev nD → PrngReg)

/-! ## The blocks tile the arrays -/

theorem mem_blk16 (t : Fin cfg0.N) (i : S1000000x1.Idx) :
    i ∈ ((cfg0.win 16).blk t).view.set ↔ ∀ a : Fin 2, win0_16.index t a * S4000x1.size a ≤ (i a).val
      ∧ (i a).val < win0_16.index t a * S4000x1.size a + S4000x1.size a := by
  show i ∈ ((View.whole main_v12_0).slice (win0_16.rect t)).set ↔ _
  rw [View.set_slice_whole, Rect.mem_set_unit]
  exact Iff.rfl

theorem mem_blk17 (t : Fin cfg0.N) (i : S250000x128.Idx) :
    i ∈ ((cfg0.win 17).blk t).view.set ↔ ∀ a : Fin 2, win0_17.index t a * S1000x128.size a ≤ (i a).val
      ∧ (i a).val < win0_17.index t a * S1000x128.size a + S1000x128.size a := by
  show i ∈ ((View.whole main_v12_1).slice (win0_17.rect t)).set ↔ _
  rw [View.set_slice_whole, Rect.mem_set_unit]
  exact Iff.rfl

theorem mem_blk18 (t : Fin cfg0.N) (i : S250000x128.Idx) :
    i ∈ ((cfg0.win 18).blk t).view.set ↔ ∀ a : Fin 2, win0_18.index t a * S1000x128.size a ≤ (i a).val
      ∧ (i a).val < win0_18.index t a * S1000x128.size a + S1000x128.size a := by
  show i ∈ ((View.whole main_v12_2).slice (win0_18.rect t)).set ↔ _
  rw [View.set_slice_whole, Rect.mem_set_unit]
  exact Iff.rfl

/-- Every node's output lies in the block of the point `node / 4000`. -/
theorem cover16 (i : S1000000x1.Idx) :
    ∃ t : Fin cfg0.N, (cfg0.win 16).flush t = true ∧ i ∈ ((cfg0.win 16).blk t).view.set := by
  have hi0 : (i 0).val < 1000000 := (i 0).isLt
  have hi1 : (i 1).val < 1 := (i 1).isLt
  have ht : (i 0).val / 4000 < cfg0.N := by rw [show cfg0.N = 250 from N_0]; omega
  obtain ⟨-, -, -, ⟨e0, e1⟩, -, -⟩ := idx_moving ⟨(i 0).val / 4000, ht⟩
  refine ⟨⟨(i 0).val / 4000, ht⟩, flush0_16 _, ?_⟩
  rw [mem_blk16]
  intro a
  match a with
  | ⟨0, _⟩ =>
    show win0_16.index ⟨(i 0).val / 4000, ht⟩ (0 : Fin 2) * 4000 ≤ (i 0).val
      ∧ (i 0).val < win0_16.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_16.index ⟨(i 0).val / 4000, ht⟩ (1 : Fin 2) * 1 ≤ (i 1).val
      ∧ (i 1).val < win0_16.index ⟨(i 0).val / 4000, ht⟩ (1 : Fin 2) * 1 + 1
    rw [e1]; omega

/-- Every packed row lies in the block of the point `row / 1000`. -/
theorem cover17 (i : S250000x128.Idx) :
    ∃ t : Fin cfg0.N, (cfg0.win 17).flush t = true ∧ i ∈ ((cfg0.win 17).blk t).view.set := by
  have hi0 : (i 0).val < 250000 := (i 0).isLt
  have hi1 : (i 1).val < 128 := (i 1).isLt
  have ht : (i 0).val / 1000 < cfg0.N := by rw [show cfg0.N = 250 from N_0]; omega
  obtain ⟨-, -, -, -, ⟨e0, e1⟩, -⟩ := idx_moving ⟨(i 0).val / 1000, ht⟩
  refine ⟨⟨(i 0).val / 1000, ht⟩, flush0_17 _, ?_⟩
  rw [mem_blk17]
  intro a
  match a with
  | ⟨0, _⟩ =>
    show win0_17.index ⟨(i 0).val / 1000, ht⟩ (0 : Fin 2) * 1000 ≤ (i 0).val
      ∧ (i 0).val < win0_17.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_17.index ⟨(i 0).val / 1000, ht⟩ (1 : Fin 2) * 128 ≤ (i 1).val
      ∧ (i 1).val < win0_17.index ⟨(i 0).val / 1000, ht⟩ (1 : Fin 2) * 128 + 128
    rw [e1]; omega

/-- Every packed row lies in the block of the point `row / 1000`. -/
theorem cover18 (i : S250000x128.Idx) :
    ∃ t : Fin cfg0.N, (cfg0.win 18).flush t = true ∧ i ∈ ((cfg0.win 18).blk t).view.set := by
  have hi0 : (i 0).val < 250000 := (i 0).isLt
  have hi1 : (i 1).val < 128 := (i 1).isLt
  have ht : (i 0).val / 1000 < cfg0.N := by rw [show cfg0.N = 250 from N_0]; omega
  obtain ⟨-, -, -, -, -, ⟨e0, e1⟩⟩ := idx_moving ⟨(i 0).val / 1000, ht⟩
  refine ⟨⟨(i 0).val / 1000, ht⟩, flush0_18 _, ?_⟩
  rw [mem_blk18]
  intro a
  match a with
  | ⟨0, _⟩ =>
    show win0_18.index ⟨(i 0).val / 1000, ht⟩ (0 : Fin 2) * 1000 ≤ (i 0).val
      ∧ (i 0).val < win0_18.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_18.index ⟨(i 0).val / 1000, ht⟩ (1 : Fin 2) * 128 ≤ (i 1).val
      ∧ (i 1).val < win0_18.index ⟨(i 0).val / 1000, ht⟩ (1 : Fin 2) * 128 + 128
    rw [e1]; omega

/-! ## The arrays after the region -/

theorem final16 (c : Dev nD) : (dats m 0 c).arrAt 16 cfg0.N = outOf m c :=
  (dats m 0 c).arrAt_eq_of_cover 16 (outOf m c) (fun t _ => flushed16_eq m c t) cover16
theorem final17 (c : Dev nD) : (dats m 0 c).arrAt 17 cfg0.N = hidPacked m c :=
  (dats m 0 c).arrAt_eq_of_cover 17 (hidPacked m c) (fun t _ => flushed17_eq m c t) cover17
theorem final18 (c : Dev nD) : (dats m 0 c).arrAt 18 cfg0.N = cellPacked m c :=
  (dats m 0 c).arrAt_eq_of_cover 18 (cellPacked m c) (fun t _ => flushed18_eq m c t) cover18

/-! ## The host's reshapes after the region unpack the two packed arrays -/

/-- Unpacking the packed array of a per-node, per-unit function gives the function back: node `n`, unit `j` sits in
    packed row `n / 4`, lane `32·(n mod 4) + j`. -/
theorem unpack_packed (f : S1000000x32.Idx → EReal) (h : S250000x128.ShapeCasts S1000000x32) :
    shapeCast S1000000x32 (fun i : S250000x128.Idx => f (ix2 (bigNode (i 0) (i 1)) (unitOf (i 1)))) h = f := by
  funext i
  obtain ⟨n, j, rfl⟩ : ∃ (n : Fin 1000000) (j : Fin 32), i = ix2 n j := ⟨i 0, i 1, eq_ix2 i⟩
  refine (shapeCast_apply _ h (ix2 n j) (ix2 (⟨n.val / 4, by omega⟩ : Fin 250000) (⟨32 * (n.val % 4) + j.val, by omega⟩ : Fin 128)) ?_).trans ?_
  · show (S250000x128.rowMajor _).val = (S1000000x32.rowMajor _).val
    rw [Shape.rowMajor_val_two, Shape.rowMajor_val_two]
    show n.val / 4 * 128 + (32 * (n.val % 4) + j.val) = n.val * 32 + j.val
    omega
  · show f (ix2 (bigNode ⟨n.val / 4, _⟩ ⟨32 * (n.val % 4) + j.val, _⟩) (unitOf ⟨32 * (n.val % 4) + j.val, _⟩)) = f (ix2 n j)
    have e1 : bigNode (⟨n.val / 4, by omega⟩ : Fin 250000) (⟨32 * (n.val % 4) + j.val, by omega⟩ : Fin 128) = n :=
      Fin.ext (by show 4 * (n.val / 4) + (32 * (n.val % 4) + j.val) / 32 = n.val; omega)
    have e2 : unitOf (⟨32 * (n.val % 4) + j.val, by omega⟩ : Fin 128) = j :=
      Fin.ext (by show (32 * (n.val % 4) + j.val) % 32 = j.val; omega)
    rw [e1, e2]

/-- The new hidden state as @main returns it: the tail's reshape of the packed array the region left. -/
theorem tail_hid (c : Dev nD) :
    Pipeline.afterTail₀ cfgs (dats m) 0 (V0 m) [hostOps1] c main_v13 = hidOf m c := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12_1)
      = hidPacked m c := (Pipeline.withArrays_arr spec0 launch0.win.arr_inj c _ _ 17).trans (final17 m c)
  rw [hw]
  exact unpack_packed (hidOf m c) _

/-- The new cell state as @main returns it. -/
theorem tail_cell (c : Dev nD) :
    Pipeline.afterTail₀ cfgs (dats m) 0 (V0 m) [hostOps1] c main_v14 = cellOf m c := by
  unfold Pipeline.afterTail₀
  show StableHlo.after hostOps1 _ (Proc.devRef .tc main_v14) = _
  after_results
  have hw : Pipeline.withArrays (cfgs 0).spec c (V0 m c) (fun w => (dats m 0 c).arrAt w (cfgs 0).N) (Proc.devRef .tc main_v12_2)
      = cellPacked m c := (Pipeline.withArrays_arr spec0 launch0.win.arr_inj c _ _ 18).trans (final18 m c)
  rw [hw]
  exact unpack_packed (cellOf m c) _

/-! ## The run -/

/-- Every weakly fair execution of the kernel's @main ends with the three results at the gated cell update of the
    arguments, and the arguments unchanged. -/
theorem run : θ_run defs (onTc (τ := τ) (main (F := Ideal))) ⟨m, fun _ => 0, ρ⟩ fun r => ∀ c : Dev nD,
      r.2.mem ((c.tc : Thread nD τ).loc main_v12_0) = outOf m c
      ∧ r.2.mem ((c.tc : Thread nD τ).loc main_v13) = hidOf m c
      ∧ r.2.mem ((c.tc : Thread nD τ).loc main_v14) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨((h c).1 16).trans (final16 m c),
      ((h c).2 main_v13 (Pipeline.mem_restRefs_of main_v13 (by decide) (by decide))).trans (tail_hid m c),
      ((h c).2 main_v14 (Pipeline.mem_restRefs_of main_v14 (by decide) (by decide))).trans (tail_cell m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c),
      ((h c).1 5).trans (((dats m 0 c).arrAt_in 5 rfl _).trans ((A_eq m c 5).trans (V_main_arg7 m c))),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).1 14).trans (((dats m 0 c).arrAt_in 14 rfl _).trans ((A_eq m c 14).trans (V_main_arg16 m c))),
      ((h c).2 main_arg17 (Pipeline.mem_restRefs_of main_arg17 (by decide) (by decide))).trans (W_main_arg17 m (dats m) c)⟩)
    (run_main m ρ)

end Cert.KernelValue

end
-- ==== Proof.lean ====
/-
  A graph-LSTM cell with peepholes (the graph convolution of order one is a plain linear map, so the edge list and
  edge weights are inert), one fused pass over a million nodes tiled 4000 at a time, against the same update written
  with whole-array jnp operations.

  Both programs compute, for node `n` and hidden unit `j`, the function of Proof/GateCell.lean: four stacked
  pre-activations `(X·Wx + bx) + (H·Wh + bh)`, the input and forget gates with a peephole on the old cell state, the
  candidate, the new cell state, the output gate with a peephole on the NEW cell state, the new hidden state, and
  the head `relu(H')·Wl + bl`.  Over the extended reals the two spellings differ only in
    • how the four-term sum of the pre-activations is grouped — the kernel adds left to right, the reference adds two
      biased products — and addition of extended reals is associative;
    • the logistic function, one operation in the kernel, `1 / (1 + e^(-x))` in the reference: the same function by
      definition, the reference's `1` being the word of one;
    • the matrix products, accumulated into a zero block in the kernel, whole in the reference: the same sums;
    • layout: the kernel receives the hidden and cell states repacked four nodes to a 128-lane row, unpacks each block,
      packs its results again, and the host unpacks them — all row-major reshapes, which keep every element's place.
  No step uses finiteness of the inputs: the two sides are the same function of every extended real.

  Proof/RefIsCell.lean reads the reference's run (generated) one operation at a time and finds that function;
  Proof/KernelRow.lean reads one row of the kernel body; Proof/KernelBlocks.lean places each block in its array and
  finds what every grid point writes back; Proof/KernelValue.lean tiles the result arrays with those blocks and
  unpacks the host's final reshapes.  The three frames are the generated ones; nothing was rewritten by the
  idealization, so its preservation claim is trivial.
-/
import proofs.«126688_j15693810499716_2_alg».proof.Defs
import proofs.«126688_j15693810499716_2_alg».proof.Proof.Gen.Kernel
import proofs.«126688_j15693810499716_2_alg».proof.Proof.Gen.Kernel.Frame
import proofs.«126688_j15693810499716_2_alg».proof.Proof.Gen.KernelIdeal
import proofs.«126688_j15693810499716_2_alg».proof.Proof.Gen.KernelIdeal.Frame
import proofs.«126688_j15693810499716_2_alg».proof.Proof.Gen.ReferenceIdeal
import proofs.«126688_j15693810499716_2_alg».proof.Proof.Gen.Pre_finite_inputs
import proofs.«126688_j15693810499716_2_alg».proof.Proof.Gen.ReferenceIdeal.Run
import proofs.«126688_j15693810499716_2_alg».proof.Proof.Gen.ReferenceIdeal.Read
import proofs.«126688_j15693810499716_2_alg».proof.Proof.RefIsCell
import proofs.«126688_j15693810499716_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the arguments, both programs end with the gated cell update of the arguments in their
    three results. -/
theorem algebraic : Cert.algebraic_KernelIdeal_ReferenceIdeal := by
  intro m ρ m' ρ' _ hagree
  refine ⟨fun c => Cert.KernelBlocks.outOf m c, fun c => Cert.KernelBlocks.hidOf m c, fun c => Cert.KernelBlocks.cellOf m c,
    Cert.KernelValue.run m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3, a4, a5, a6, a7, a8, a9, a10, a11, a12, a13, a14, a15, a16, a17⟩ := hagree c
  refine ⟨h0.trans ?_, h1.trans ?_, h2.trans ?_, hargs⟩
  · rw [Cert.ReferenceIdeal.Read.val_main_v65_eq, Cert.RefIsCell.out_eq, a0, a3, a4, a5, a6, a7, a8, a9, a10, a11, a12, a13, a14, a15, a16, a17]
    rfl
  · rw [Cert.ReferenceIdeal.Read.val_main_v60_eq, Cert.RefIsCell.hid_eq, a0, a3, a4, a5, a6, a7, a8, a9, a10, a11, a12, a13, a14, a15]
    rfl
  · refine (Cert.ReferenceIdeal.Read.val_main_v45_eq _ _ _ _ _ _ _ _ _ _ _ _).trans ?_
    rw [Cert.RefIsCell.cell_eq, a0, a3, a4, a5, a6, a7, a8, a9, a10, a12, a13, a14]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
